-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S100000x128 .f32) (main_arg2 : FVec F S128x128 .f32) (main_arg3 : FVec F S128 .f32) (main_arg4 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S5000x128 : Shape := ⟨2, ![5000, 128]⟩
abbrev S5000x1 : Shape := ⟨2, ![5000, 1]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 42
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S2x1600000, .i32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S1x128, .f32⟩
  | .hbm, ⟨41, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v27) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 68
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S2x1600000, .i32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel program's run, with its result named.

  The program is two dense regions among stretches of host operations. Its buffer contents at each boundary are a fold
  from the launch memory: a stretch applies its operations, a region replaces each of its arrays by what its
  write-backs leave. Every weakly fair execution terminates with every unscoped buffer at the last boundary's
  contents; in particular the result buffer holds the last boundary's contents there, and the arguments are as launched.
-/
import proofs.«152121_j6150393168665_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched: the launch over the program's segments, the last thread
    state (every unscoped buffer at the last boundary's contents) read against the final state. -/
theorem run_result : θ_run defs (onTc (τ := τ) (main (F := F))) ⟨m, fun _ => 0, ρ⟩ (fun r => ∀ c : Dev nD,
      r.2.mem ((c.tc : Thread nD τ).loc main_v27) = W6 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v27 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.RunValue

end
-- ==== Proof.GcnDefs.lean ====
/-
  One graph-convolution layer with symmetric normalisation, as two whole-array functions.

  A graph has N nodes with K input features and C output features. Node r carries a normalisation factor d r (kept as
  an N × 1 column). The two functions are the layer's two dense halves:

  * `prescaled x w d`: entry (r, q) is (Σ_k x(r, k) · w(k, q)) · d(r) — the linear map x · w with row r scaled by d(r);
  * `postscaled a h d b`: entry (r, q) is max((a(r, q) + h(r, q)) · d(r) + b(q), 0) — an aggregate a and a self term h added,
    row r scaled by d(r), the bias (kept as a 1 × C row) added, and the maximum with zero taken.

  Between the two halves sits the aggregation over the edges (a gather of rows and an accumulating scatter), which is not
  dense and is not part of this file.
-/
import Idealize.ShloMosaic.PureOps.Ideal
import Idealize.ShloMosaic.Lib.ValueIdx

noncomputable section

open scoped BigOperators

namespace Gcn

open Idealize.ShloMosaic Idealize.ShloMosaic.ValueIdx

/-- The linear map with row `r` scaled by `d r`: entry `(r, q)` is `(Σ_k x(r, k) · w(k, q)) · d(r, 0)`. -/
def prescaled {N K C : ℕ} (x : FVec Ideal ⟨2, ![N, K]⟩ .f32) (w : FVec Ideal ⟨2, ![K, C]⟩ .f32)
    (d : FVec Ideal ⟨2, ![N, 1]⟩ .f32) : FVec Ideal ⟨2, ![N, C]⟩ .f32 :=
  fun j => (∑ k : Fin K, x (ix2 (j 0) k) * w (ix2 k (j 1))) * d (ix2 (j 0) (0 : Fin 1))

theorem prescaled_apply {N K C : ℕ} (x : FVec Ideal ⟨2, ![N, K]⟩ .f32) (w : FVec Ideal ⟨2, ![K, C]⟩ .f32)
    (d : FVec Ideal ⟨2, ![N, 1]⟩ .f32) (r : Fin N) (q : Fin C) :
    prescaled x w d (ix2 r q) = (∑ k : Fin K, x (ix2 r k) * w (ix2 k q)) * d (ix2 r (0 : Fin 1)) := rfl

/-- The aggregate and the self term added, row `r` scaled by `d r`, the bias added, the maximum with zero taken:
    entry `(r, q)` is `max((a(r, q) + h(r, q)) · d(r, 0) + b(0, q), 0)`. -/
def postscaled {N C : ℕ} (a h : FVec Ideal ⟨2, ![N, C]⟩ .f32) (d : FVec Ideal ⟨2, ![N, 1]⟩ .f32)
    (b : FVec Ideal ⟨2, ![1, C]⟩ .f32) : FVec Ideal ⟨2, ![N, C]⟩ .f32 :=
  fun j => max ((a j + h j) * d (ix2 (j 0) (0 : Fin 1)) + b (ix2 (0 : Fin 1) (j 1))) 0

theorem postscaled_apply {N C : ℕ} (a h : FVec Ideal ⟨2, ![N, C]⟩ .f32) (d : FVec Ideal ⟨2, ![N, 1]⟩ .f32)
    (b : FVec Ideal ⟨2, ![1, C]⟩ .f32) (r : Fin N) (q : Fin C) :
    postscaled a h d b (ix2 r q)
      = max ((a (ix2 r q) + h (ix2 r q)) * d (ix2 r (0 : Fin 1)) + b (ix2 (0 : Fin 1) q)) 0 := rfl

end Gcn

end
-- ==== Proof.LibColumnBroadcast.lean ====
import Idealize.ShloMosaic.Lib.Pipeline.Value
import Idealize.ShloMosaic.Lib.ValueIdx

/-! # A column broadcast along the last axis, read at an index

An `a × 1` column broadcast to `a × b` (what a row statistic kept as a column becomes when it is combined with the
whole row again) repeats entry `(i, 0)` along row `i`. Stated for any extents and any element type, over indices
written with `ix2`, so that it applies to a printed broadcast by unification. -/

namespace ColumnBroadcast

open Idealize.ShloMosaic Idealize.ShloMosaic.ValueIdx

variable {α : Type}

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end ColumnBroadcast
-- ==== Proof.Region0Value.lean ====
/-
  The first dense half of the graph-convolution layer, read off the kernel's first region.

  The region walks the 100000 rows of the node features x (100000 × 128) in 20 blocks of 5000 rows. At block t it
  holds rows 5000·t … 5000·t + 4999 of x, the whole weight matrix w (128 × 128), and the same rows of the
  normalisation column d (100000 × 1), and it writes the same rows of the output. Entry (p, q) of what it writes is

      (Σ_k x_blk(p, k) · w(k, q)) · d_blk(p, 0):

  the product of the block of rows with the weights, accumulated from zero, each row then scaled by its own
  normalisation factor (the column repeated along the row). At the ideal values the narrowing of both operands of
  the product changes nothing.

  Since block t of each row-blocked array is rows 5000·t + p of the whole array, what block t writes is block t of
  the one whole-array function `Gcn.prescaled x w d`, whose entry (r, q) is (Σ_k x(r, k) · w(k, q)) · d(r, 0). The 20
  blocks tile the 100000 rows (row r lies in block r / 5000), so the output array ends as `Gcn.prescaled x w d`:
  this is `final`.

  Contents: the product into a zero accumulator read at an index, for any extents (`matmul_zero_acc_apply`); the
  block's payload read at (p, q) (`payload_apply`); where each window's block sits at point t
  (`block_indices`); each input block read as rows of its array (`features_block_apply`, `weights_block_apply`,
  `norm_block_apply`) and the output's block of any whole-array function (`output_block_read_apply`); what point t
  writes back (`flushed_eq`); the rows a block covers (`mem_blk`) and that the blocks cover every row (`cover`);
  the array after the region (`final`).
-/
import proofs.«152121_j6150393168665_2_alg».proof.Proof.Gen.KernelIdeal.Frame
import proofs.«152121_j6150393168665_2_alg».proof.Proof.GcnDefs
import proofs.«152121_j6150393168665_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region0Value

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## A matrix product accumulated from zero, read at an index -/

/-- The product of an m × k matrix by a k × n matrix (contracting the left operand's columns against the right
    operand's rows, no batch axis), accumulated into the zero matrix, has at (a, b) the sum over the contracted
    coordinate c of A(a, c) · B(c, b). At the ideal values, for any extents and operand formats; `w` is the
    well-formedness of the dimension numbers, which a program states. The contraction index has one axis, so the sum
    over it is re-indexed by its one coordinate; the left operand's index at (a, b) and c is (a, c), the right
    operand's is (c, b). -/
theorem matmul_zero_acc_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## The block the body writes, read at an entry -/

/-- Entry (p, q) of the block the body writes, from the three blocks it reads: the product of the row block `x0` with
    the weights `x1` at (p, q), times the normalisation column `x2` at (p, 0). The entrywise product reads through;
    the cast of the column to its own shape is the identity; the column repeated along the rows reads (p, 0) at (p, q);
    the product accumulated from zero is the sum over the contracted coordinate, and narrowing an operand of it is the
    identity at the ideal values. -/
theorem payload_apply (x0 : Vec Ideal S5000x128 .f32) (x1 : Vec Ideal S128x128 .f32) (x2 : Vec Ideal S5000x1 .f32)
    (p : Fin 5000) (q : Fin 128) :
    k0_pay1 x0 x1 x2 (ix2 p q) = (∑ k : Fin 128, x0 (ix2 p k) * x1 (ix2 k q)) * x2 (ix2 p (0 : Fin 1)) := by
  unfold k0_pay1
  rw [mulf_apply, shapeCast_self, ColumnBroadcast.broadcastTo_a1_ab_apply]
  refine congrArg (· * x2 (ix2 p (0 : Fin 1))) ?_
  exact matmul_zero_acc_apply (m := 5000) (k := 128) (n := 128) Facts₀.dot_S5000x128_S128x128_S5000x128_1_0_0_1_n_n_wf none
    (truncf .bf16 x0 Facts₀.bitsLt_bf16_f32) (truncf .bf16 x1 Facts₀.bitsLt_bf16_f32) p q

/-! ## Where each block sits in its array -/

/-- The body reads and writes its whole blocks: the offsets of every access are zero on both axes. -/
theorem zero_offsets : (![0, 0] : Fin 2 → Nat) = fun _ => 0 := funext fun a => by fin_cases a <;> rfl

/-- The block indices at grid point `t`, decided over the 20 points: the features, the normalisation column and
    the output are at row block `t`, column block 0; the weights are at block (0, 0) at every point. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of the features' block at point `t` is row `r = 5000·t + p` of the features: on each axis a block's entry
    sits at the block index times the block's extent plus the coordinate inside the block. -/
theorem features_block_apply (c : Dev nD) (t : Fin cfg0.N) (p : Fin 5000) (k : Fin 128) (r : Fin 100000)
    (hr : r.val = t.val * 5000 + p.val) :
    (iblk0 V c 0 t : Vec Ideal S5000x128 .f32) (ix2 p k) = (V c main_arg0 : S100000x128.Idx → EReal) (ix2 r k) := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- The weights' block at every point is the whole weight matrix. -/
theorem weights_block_apply (c : Dev nD) (t : Fin cfg0.N) (k : Fin 128) (q : Fin 128) :
    (iblk0 V c 1 t : Vec Ideal S128x128 .f32) (ix2 k q) = (V c main_arg2 : S128x128.Idx → EReal) (ix2 k q) := by
  obtain ⟨-, -, e2, e3, -⟩ := block_indices t
  unfold iblk0
  rw [View.read_apply]
  show V c main_arg2 _ = V c main_arg2 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- Row `p` of the normalisation column's block at point `t` is row `r = 5000·t + p` of the column. -/
theorem norm_block_apply (c : Dev nD) (t : Fin cfg0.N) (p : Fin 5000) (r : Fin 100000)
    (hr : r.val = t.val * 5000 + p.val) :
    (iblk0 V c 2 t : Vec Ideal S5000x1 .f32) (ix2 p (0 : Fin 1)) = (V c main_v14 : S100000x1.Idx → EReal) (ix2 r (0 : Fin 1)) := by
  obtain ⟨-, -, -, -, e4, e5, -⟩ := block_indices t
  unfold iblk0
  rw [View.read_apply]
  show V c main_v14 _ = V c main_v14 _
  congr 1
  funext a
  apply Fin.ext
  match a with
  | ⟨0, _⟩ => show win0_2.index t (0 : Fin 2) * 5000 + 1 * p.val = r.val; rw [e4, hr]; omega
  | ⟨1, _⟩ => show win0_2.index t (1 : Fin 2) * 1 + 1 * 0 = 0; rw [e5]

/-- The output's block at point `t` of ANY whole-array function `G`, at (p, q), is `G` at row `r = 5000·t + p`,
    column `q`. -/
theorem output_block_read_apply (G : S100000x128.Idx → EReal) (t : Fin cfg0.N) (p : Fin 5000) (q : Fin 128)
    (r : Fin 100000) (hr : r.val = t.val * 5000 + p.val) :
    ((cfg0.win 3).blk t).view.read (Elt Ideal) G (ix2 p q) = G (ix2 r q) := by
  obtain ⟨-, -, -, -, -, -, e6, e7⟩ := block_indices t
  rw [View.read_apply]
  show G _ = G _
  congr 1
  funext a
  apply Fin.ext
  match a with
  | ⟨0, _⟩ => show win0_3.index t (0 : Fin 2) * 5000 + 1 * p.val = r.val; rw [e6, hr]; omega
  | ⟨1, _⟩ => show win0_3.index t (1 : Fin 2) * 128 + 1 * q.val = q.val; rw [e7]; omega

/-! ## From the blocks to the array -/

/-- WHAT POINT `t` WRITES BACK is block `t` of the scaled product of the whole arrays: the body's one store covers
    its buffer, so the buffer holds the payload of the three input blocks; at (p, q) that is
    (Σ_k x_blk(p, k) · w_blk(k, q)) · d_blk(p, 0), and each block's row p is row 5000·t + p of its array — the row at
    which the output's block reads the whole-array function. -/
theorem flushed_eq (c : Dev nD) (t : Fin cfg0.N) :
    (dat0 (F := Ideal) V c).flushed 3 t
      = ((cfg0.win 3).blk t).view.read (Elt Ideal) (Gcn.prescaled (V c main_arg0) (V c main_arg2) (V c main_v14)) := by
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S5000x1) zero_offsets]
  funext j
  obtain ⟨p, q, rfl⟩ : ∃ (p : Fin 5000) (q : Fin 128), j = ix2 p q := ⟨j 0, j 1, eq_ix2 j⟩
  have ht : t.val < 20 := lt_of_lt_of_eq t.isLt N_0
  have hp : p.val < 5000 := p.isLt
  refine (payload_apply (iblk0 V c 0 t) (iblk0 V c 1 t) (iblk0 V c 2 t) p q).trans ?_
  rw [output_block_read_apply _ t p q ⟨t.val * 5000 + p.val, by omega⟩ rfl, Gcn.prescaled_apply,
    norm_block_apply V c t p ⟨t.val * 5000 + p.val, by omega⟩ rfl]
  refine congrArg (· * _) (Finset.sum_congr rfl fun k _ => ?_)
  rw [features_block_apply V c t p k ⟨t.val * 5000 + p.val, by omega⟩ rfl, weights_block_apply V c t k q]

/-- An index of the output array is in point `t`'s block iff on each axis its coordinate is in the block's range:
    from the block index times the block's extent, for the block's extent. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v15).slice (win0_3.rect t)).set ↔ _
  rw [View.set_slice_whole, Rect.mem_set_unit]
  exact Iff.rfl

/-- THE BLOCKS COVER THE ARRAY: row r is in the block of point r / 5000 (below 20, as r is below 100000), which is
    written back; every column is in column block 0. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  have hlt : (i 0).val / 5000 < grid0.N := by rw [hN]; omega
  obtain ⟨-, -, -, -, -, -, e6, e7⟩ := block_indices ⟨(i 0).val / 5000, hlt⟩
  refine ⟨⟨(i 0).val / 5000, hlt⟩, flush0_3 _, ?_⟩
  rw [mem_blk]
  intro a
  match a with
  | ⟨0, _⟩ =>
    show win0_3.index ⟨(i 0).val / 5000, hlt⟩ (0 : Fin 2) * 5000 ≤ (i 0).val
      ∧ (i 0).val < win0_3.index ⟨(i 0).val / 5000, hlt⟩ (0 : Fin 2) * 5000 + 5000
    rw [e6]
    show (i 0).val / 5000 * 5000 ≤ (i 0).val ∧ (i 0).val < (i 0).val / 5000 * 5000 + 5000
    omega
  | ⟨1, _⟩ =>
    show win0_3.index ⟨(i 0).val / 5000, hlt⟩ (1 : Fin 2) * 128 ≤ (i 1).val
      ∧ (i 1).val < win0_3.index ⟨(i 0).val / 5000, hlt⟩ (1 : Fin 2) * 128 + 128
    rw [e7]
    omega

/-- THE OUTPUT ARRAY AFTER THE REGION is the scaled product of the arrays the region finds: every point writes its block
    of that one function (`flushed_eq`) and the blocks cover the array (`cover`). -/
theorem final (c : Dev nD) :
    (dat0 (F := Ideal) V c).arrAt 3 cfg0.N = Gcn.prescaled (V c main_arg0) (V c main_arg2) (V c main_v14) :=
  (dat0 V c).arrAt_eq_of_cover 3 (Gcn.prescaled (V c main_arg0) (V c main_arg2) (V c main_v14))
    (fun t _ => flushed_eq V c t) cover

end Cert.KernelIdeal.Region0Value

end
-- ==== Proof.Region1Value.lean ====
/-
  The second dense half of a graph-convolution layer, read off its blocked evaluation.

  The region walks the 100000 rows of the node arrays in 20 row blocks of 5000 rows. At block t it sees rows
  5000·t … 5000·t + 4999 of the aggregate a and of the self term h (both 100000 × 128), the same rows of the
  normalisation column d (100000 × 1), and the whole bias row b (1 × 128), and it writes the same rows of the result:
  entry (p, q) of the block is max((a_blk(p, q) + h_blk(p, q)) · d_blk(p, 0) + b(0, q), 0).

  Row p of block t is row 5000·t + p of the arrays, the 20 blocks are disjoint and together cover every row, so the
  result array is, entry by entry, `Gcn.postscaled a h d b`:
  entry (r, q) is max((a(r, q) + h(r, q)) · d(r, 0) + b(0, q), 0).
-/
import proofs.«152121_j6150393168665_2_alg».proof.Proof.Gen.KernelIdeal.Frame
import proofs.«152121_j6150393168665_2_alg».proof.Proof.GcnDefs
import proofs.«152121_j6150393168665_2_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Region1Value

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## One block's arithmetic, entry by entry -/

/-- Entry (p, q) of what one block computes from its four operands: the two 5000 × 128 blocks added, row p scaled
    by the column's entry (p, 0), the bias row's entry (0, q) added, and the maximum with zero taken. The casts are to
    the same shapes, the column is repeated along each row, the bias row is repeated down the rows, and the zero
    word is the real number 0. -/
theorem payload_apply (x0 x1 : Vec Ideal S5000x128 .f32) (x2 : Vec Ideal S5000x1 .f32) (x3 : Vec Ideal S1x128 .f32)
    (p : Fin 5000) (q : Fin 128) :
    k1_pay1 (F := Ideal) x0 x1 x2 x3 (ix2 p q)
      = max ((x0 (ix2 p q) + x1 (ix2 p q)) * x2 (ix2 p (0 : Fin 1)) + x3 (ix2 (0 : Fin 1) q)) 0 := by
  unfold k1_pay1
  rw [maximumf_apply, addf_apply, mulf_apply, addf_apply, broadcast_apply, shapeCast_self, shapeCast_self,
    shapeCast_self, shapeCast_self, ColumnBroadcast.broadcastTo_a1_ab_apply, broadcastTo_1b_ab_apply,
    Ideal.ofBits_def, Ideal.ofBits_zero_f32]

/-! ## Where each block sits in its array -/

/-- The zero offsets of a whole-block access, as a constant function. -/
theorem hz : (![0, 0] : Fin 2 → Nat) = fun _ => 0 := funext fun a => by fin_cases a <;> rfl

/-- The block indices at grid point t, decided over the 20 points: the aggregate, the self term, the normalisation
    column and the result are all at block (t, 0); the bias row is at block (0, 0) at every point. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (p, q) of the aggregate's block at point t is entry (5000·t + p, q) of the aggregate: a block's coordinate
    on each axis is the block index times the block's extent plus the coordinate inside the block. -/
theorem aggregate_block_apply (c : Dev nD) (t : Fin cfg1.N) (p : Fin 5000) (q : Fin 128) (r : Fin 100000)
    (hr : r.val = t.val * 5000 + p.val) :
    (iblk1 V c 0 t : Vec Ideal S5000x128 .f32) (ix2 p q)
      = (V c main_v25 : S100000x128.Idx → Elt Ideal .f32) (ix2 r q) := by
  obtain ⟨e0, e1, -⟩ := index_facts t
  unfold iblk1
  rw [View.read_apply]
  show V c main_v25 _ = V c main_v25 _
  refine congrArg _ ?_
  funext a
  apply Fin.ext
  match a with
  | ⟨0, _⟩ => show win1_0.index t (0 : Fin 2) * 5000 + 1 * p.val = r.val; rw [e0, hr]; omega
  | ⟨1, _⟩ => show win1_0.index t (1 : Fin 2) * 128 + 1 * q.val = q.val; rw [e1]; omega

/-- Entry (p, q) of the self term's block at point t is entry (5000·t + p, q) of the self term. -/
theorem self_block_apply (c : Dev nD) (t : Fin cfg1.N) (p : Fin 5000) (q : Fin 128) (r : Fin 100000)
    (hr : r.val = t.val * 5000 + p.val) :
    (iblk1 V c 1 t : Vec Ideal S5000x128 .f32) (ix2 p q)
      = (V c main_v15 : S100000x128.Idx → Elt Ideal .f32) (ix2 r q) := by
  obtain ⟨-, -, e0, e1, -⟩ := index_facts t
  unfold iblk1
  rw [View.read_apply]
  show V c main_v15 _ = V c main_v15 _
  refine congrArg _ ?_
  funext a
  apply Fin.ext
  match a with
  | ⟨0, _⟩ => show win1_1.index t (0 : Fin 2) * 5000 + 1 * p.val = r.val; rw [e0, hr]; omega
  | ⟨1, _⟩ => show win1_1.index t (1 : Fin 2) * 128 + 1 * q.val = q.val; rw [e1]; omega

/-- Entry (p, 0) of the normalisation column's block at point t is entry (5000·t + p, 0) of the column. -/
theorem norm_block_apply (c : Dev nD) (t : Fin cfg1.N) (p : Fin 5000) (r : Fin 100000)
    (hr : r.val = t.val * 5000 + p.val) :
    (iblk1 V c 2 t : Vec Ideal S5000x1 .f32) (ix2 p (0 : Fin 1))
      = (V c main_v14 : S100000x1.Idx → Elt Ideal .f32) (ix2 r (0 : Fin 1)) := by
  obtain ⟨-, -, -, -, e0, e1, -⟩ := index_facts t
  unfold iblk1
  rw [View.read_apply]
  show V c main_v14 _ = V c main_v14 _
  refine congrArg _ ?_
  funext a
  apply Fin.ext
  match a with
  | ⟨0, _⟩ => show win1_2.index t (0 : Fin 2) * 5000 + 1 * p.val = r.val; rw [e0, hr]; omega
  | ⟨1, _⟩ => show win1_2.index t (1 : Fin 2) * 1 + 1 * 0 = 0; rw [e1]

/-- The bias row's block is the whole row at every point: its entry (0, q) is the row's entry (0, q). -/
theorem bias_block_apply (c : Dev nD) (t : Fin cfg1.N) (q : Fin 128) :
    (iblk1 V c 3 t : Vec Ideal S1x128 .f32) (ix2 (0 : Fin 1) q)
      = (V c main_v26 : S1x128.Idx → Elt Ideal .f32) (ix2 (0 : Fin 1) q) := by
  obtain ⟨-, -, -, -, -, -, e0, e1, -⟩ := index_facts t
  unfold iblk1
  rw [View.read_apply]
  show V c main_v26 _ = V c main_v26 _
  refine congrArg _ ?_
  funext a
  apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

/-- Entry (p, q) of the result's block at point t sits at (5000·t + p, q) of the result array. -/
theorem out_block_emb (t : Fin cfg1.N) (p : Fin 5000) (q : Fin 128) (r : Fin 100000)
    (hr : r.val = t.val * 5000 + p.val) :
    ((cfg1.win 4).blk t).view.emb (ix2 p q) = (ix2 r q : S100000x128.Idx) := by
  obtain ⟨-, -, -, -, -, -, -, -, e0, e1⟩ := index_facts t
  funext a
  apply Fin.ext
  match a with
  | ⟨0, _⟩ => show win1_4.index t (0 : Fin 2) * 5000 + 1 * p.val = r.val; rw [e0, hr]; omega
  | ⟨1, _⟩ => show win1_4.index t (1 : Fin 2) * 128 + 1 * q.val = q.val; rw [e1]; omega

/-! ## From the blocks to the array -/

/-- What point t writes back is block t of `Gcn.postscaled a h d b`: the block's one whole-block store leaves the
    block's arithmetic of the four operand blocks, and each operand block's row p is row 5000·t + p of its array
    (the bias row is the same at every point), which is where the result's block puts its row p. -/
theorem flushed_eq (c : Dev nD) (t : Fin cfg1.N) :
    (dat1 (F := Ideal) V c).flushed 4 t = ((cfg1.win 4).blk t).view.read (Elt Ideal)
      (Gcn.postscaled (V c main_v25) (V c main_v15) (V c main_v14) (V c main_v26)) := by
  show (cfg1.win 4).cut (grid1.coords t) ((dat1 (F := Ideal) V c).after 4 t) = _
  rw [after1_4]
  unfold out1_4
  rw [View.canon_unit_zero hz]
  simp only [View.ld_unit_zero (S := S5000x128) hz, View.ld_unit_zero (S := S5000x1) hz,
    View.ld_unit_zero (S := S1x128) hz]
  funext j
  obtain ⟨p, q, rfl⟩ : ∃ (p : Fin 5000) (q : Fin 128), j = ix2 p q := ⟨j 0, j 1, eq_ix2 j⟩
  have ht : t.val < 20 := lt_of_lt_of_eq t.isLt N_1
  have hr : t.val * 5000 + p.val < 100000 := by have := p.isLt; omega
  show k1_pay1 (F := Ideal) (iblk1 V c 0 t) (iblk1 V c 1 t) (iblk1 V c 2 t) (iblk1 V c 3 t) (ix2 p q)
    = Gcn.postscaled (V c main_v25) (V c main_v15) (V c main_v14) (V c main_v26)
        (((cfg1.win 4).blk t).view.emb (ix2 p q))
  rw [out_block_emb t p q ⟨t.val * 5000 + p.val, hr⟩ rfl, Gcn.postscaled_apply]
  refine (payload_apply _ _ _ _ p q).trans ?_
  rw [aggregate_block_apply V c t p q ⟨_, hr⟩ rfl, self_block_apply V c t p q ⟨_, hr⟩ rfl,
    norm_block_apply V c t p ⟨_, hr⟩ rfl, bias_block_apply V c t q]

/-- An index of the result array is in point t's block iff, on each axis, its coordinate is in the block's range:
    from the block index times the block's extent, for the block's extent. -/
theorem mem_out_block (t : Fin cfg1.N) (i : S100000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v27).slice (win1_4.rect t)).set ↔ _
  rw [View.set_slice_whole, Rect.mem_set_unit]
  exact Iff.rfl

/-- Every index of the result array is in some point's block: row r is in block r / 5000, and every column is in
    the block's one column range. Every point writes its block back. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  obtain ⟨t, ht⟩ : ∃ t : Fin cfg1.N, t.val = (i 0).val / 5000 :=
    ⟨⟨(i 0).val / 5000, lt_of_lt_of_eq (by omega : (i 0).val / 5000 < 20) N_1.symm⟩, rfl⟩
  obtain ⟨-, -, -, -, -, -, -, -, e0, e1⟩ := index_facts t
  refine ⟨t, flush1_4 t, ?_⟩
  rw [mem_out_block]
  intro a
  match a with
  | ⟨0, _⟩ =>
    show win1_4.index t (0 : Fin 2) * 5000 ≤ (i 0).val ∧ (i 0).val < win1_4.index t (0 : Fin 2) * 5000 + 5000
    rw [e0, ht]; omega
  | ⟨1, _⟩ =>
    show win1_4.index t (1 : Fin 2) * 128 ≤ (i 1).val ∧ (i 1).val < win1_4.index t (1 : Fin 2) * 128 + 128
    rw [e1]; omega

/-- The result array after the region's 20 points: `Gcn.postscaled` of the aggregate, the self term, the
    normalisation column and the bias row as the region finds them. -/
theorem final (c : Dev nD) :
    (dat1 (F := Ideal) V c).arrAt 4 cfg1.N
      = Gcn.postscaled (V c main_v25) (V c main_v15) (V c main_v14) (V c main_v26) :=
  (dat1 (F := Ideal) V c).arrAt_eq_of_cover 4 _ (fun t _ => flushed_eq V c t) cover

end Cert.KernelIdeal.Region1Value

end
-- ==== Proof.LibLoopScatter.lean ====
/-
  THE ACCUMULATING SCATTER, READ AT AN INDEX, AND SPLIT OVER AN INDEX LIST WITH ONE SELF LOOP PER NODE APPENDED.

  A graph has N nodes and E edges; an index vector v names a node per edge. The accumulating float scatter of updates
  u along v into an array x0 of node values (a segment sum: entry i receives every u e with v e = i) is, over the
  extended reals, x0 i plus the finite sum of the updates whose index is i. The start index is read SIGNED and is NOT
  clamped: an update whose index is negative or at least N lands nowhere and is dropped.

  Appending one self loop per node — the T = E + N entries v ++ [0, 1, …, N − 1], the updates u1 ++ u2 — adds to entry
  i exactly the loop update u2 i: the scatter over the T entries is the scatter over the E entries, plus u2 pointwise.

  Everything is stated for any extents, over literal shapes and indices built from their coordinates, so that it applies
  to a printed operation by unification.
-/
import Idealize.ShloMosaic.Lib.Pipeline.Value
import Idealize.ShloMosaic.Lib.ValueIdx
import Idealize.ShloMosaic.Lib.IdealHost
import Idealize.ShloMosaic.PureOps.Ideal

noncomputable section

open scoped BigOperators

namespace LoopConcat

open Idealize.ShloMosaic Idealize.ShloMosaic.ValueIdx

/-! ## The dimension numbers -/

/-- The dimension numbers of a scatter of a vector of `T` updates into a vector of `N` entries along a one-column array
    of `T` start indices: no window axis, the operand's one axis inserted and named by the start index. -/
abbrev vecScatterDims (N T : ℕ) (wf : ScatterDims.WF ⟨1, ![N]⟩ ⟨2, ![T, 1]⟩ ⟨1, ![T]⟩ [] [0] [0] 1) :
    ScatterDims ⟨1, ![N]⟩ ⟨2, ![T, 1]⟩ ⟨1, ![T]⟩ where
  updateWindowDims := []
  insertedWindowDims := [0]
  scatterDimsToOperandDims := [0]
  indexVectorDim := 1
  wf := wf

/-- The dimension numbers of a scatter of `T` rows of `C` updates into `N` rows along a one-column array of `T` start
    indices: the updates' second axis is the window, the operand's first axis is inserted and named by the start index. -/
abbrev rowScatterDims (N T C : ℕ) (wf : ScatterDims.WF ⟨2, ![N, C]⟩ ⟨2, ![T, 1]⟩ ⟨2, ![T, C]⟩ [1] [0] [0] 1) :
    ScatterDims ⟨2, ![N, C]⟩ ⟨2, ![T, 1]⟩ ⟨2, ![T, C]⟩ where
  updateWindowDims := [1]
  insertedWindowDims := [0]
  scatterDimsToOperandDims := [0]
  indexVectorDim := 1
  wf := wf

/-! ## A one-column index array read at a row -/

/-- A vector laid out as one column reads, at row `e`, the vector's entry `e`. -/
theorem column_apply {α : Type} {T : ℕ} (wc : (⟨1, ![T]⟩ : Shape).BroadcastsInDim ⟨2, ![T, 1]⟩ ![0])
    (v : (⟨1, ![T]⟩ : Shape).Idx → α) (e : Fin T) (z : Fin 1) :
    broadcastInDim ⟨2, ![T, 1]⟩ ![0] wc v (ix2 e z) = v (ix1 e) := by
  refine broadcastInDim_apply ![0] wc v (ix2 e z) (ix1 e) fun a => ?_
  match a with
  | ⟨0, _⟩ =>
    show e.val = if T = 1 then 0 else e.val
    split
    · have := e.isLt; omega
    · rfl

/-! ## Where an update lands -/

section Vec
variable {N T : ℕ} (wf : ScatterDims.WF ⟨1, ![N]⟩ ⟨2, ![T, 1]⟩ ⟨1, ![T]⟩ [] [0] [0] 1)
  (wc : (⟨1, ![T]⟩ : Shape).BroadcastsInDim ⟨2, ![T, 1]⟩ ![0])

/-- The start of update `e` on the operand's axis is the index vector's entry `e`, read signed. -/
theorem start_vec (v : IVec ⟨1, ![T]⟩ 32) (e : Fin T) :
    (vecScatterDims N T wf).start (ix1 e) (broadcastInDim ⟨2, ![T, 1]⟩ ![0] wc v) 0 = (v (ix1 e)).toInt := by
  unfold ScatterDims.start
  rw [dif_pos (show (0 : Fin 1) ∈ (vecScatterDims N T wf).scatterDimsToOperandDims from List.mem_singleton.mpr rfl)]
  have hsi : (vecScatterDims N T wf).siIdx (ix1 e)
      ⟨List.idxOf (0 : Fin 1) (vecScatterDims N T wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi, column_apply]

/-- A vector update has no window coordinate. -/
theorem window_vec (e : Fin T) : (vecScatterDims N T wf).window (ix1 e) 0 = 0 := by
  unfold ScatterDims.window
  have h0 : (0 : Fin 1) ∉ (vecScatterDims N T wf).sKept :=
    show (0 : Fin 1) ∉ ((List.finRange 1).filter (· ∉ [(0 : Fin 1)])) by decide
  exact dif_neg h0

/-- WHERE A VECTOR UPDATE LANDS: update `e` lands on entry `i` exactly when the index vector's entry `e`, read signed,
    is `i`. -/
theorem resultIdx?_vec (v : IVec ⟨1, ![T]⟩ 32) (e : Fin T) (i : Fin N) :
    (vecScatterDims N T wf).resultIdx? (ix1 e) (broadcastInDim ⟨2, ![T, 1]⟩ ![0] wc v) = some (ix1 i)
      ↔ (v (ix1 e)).toInt = (i.val : ℤ) := by
  have hs := start_vec wf wc v e
  have hw := window_vec (N := N) wf e
  unfold ScatterDims.resultIdx?
  split
  · next h =>
    rw [Option.some.injEq]
    constructor
    · intro hEq
      have h0 := h 0
      have := congrArg (fun f : (⟨1, ![N]⟩ : Shape).Idx => (f 0).val) hEq
      simp only [hs, hw] at this h0
      show (v (ix1 e)).toInt = (i.val : ℤ)
      change ((v (ix1 e)).toInt + ((0 : ℕ) : ℤ)).toNat = i.val at this
      omega
    · intro hEq
      funext a
      obtain rfl : a = 0 := Subsingleton.elim _ _
      refine Fin.ext ?_
      show ((vecScatterDims N T wf).start (ix1 e) (broadcastInDim ⟨2, ![T, 1]⟩ ![0] wc v) 0
        + ((vecScatterDims N T wf).window (ix1 e) 0 : ℕ)).toNat = i.val
      rw [hs, hw, hEq]; omega
  · next h =>
    constructor
    · intro hEq; exact absurd hEq (by simp)
    · intro hEq
      exfalso; apply h
      intro a
      obtain rfl : a = 0 := Subsingleton.elim _ _
      rw [hs, hw, hEq]
      have : i.val < N := i.isLt
      show 0 ≤ (i.val : ℤ) + ((0 : ℕ) : ℤ) ∧ (i.val : ℤ) + ((0 : ℕ) : ℤ) < ((N : ℕ) : ℤ)
      omega

end Vec

section Row
variable {N T C : ℕ} (wf : ScatterDims.WF ⟨2, ![N, C]⟩ ⟨2, ![T, 1]⟩ ⟨2, ![T, C]⟩ [1] [0] [0] 1)
  (wc : (⟨1, ![T]⟩ : Shape).BroadcastsInDim ⟨2, ![T, 1]⟩ ![0])

/-- The start of row update `(e, k)` on the operand's row axis is the index vector's entry `e`, read signed … -/
theorem start_row0 (v : IVec ⟨1, ![T]⟩ 32) (e : Fin T) (k : Fin C) :
    (rowScatterDims N T C wf).start (ix2 e k) (broadcastInDim ⟨2, ![T, 1]⟩ ![0] wc v) 0 = (v (ix1 e)).toInt := by
  unfold ScatterDims.start
  rw [dif_pos (show (0 : Fin 2) ∈ (rowScatterDims N T C wf).scatterDimsToOperandDims from List.mem_singleton.mpr rfl)]
  have hsi : (rowScatterDims N T C wf).siIdx (ix2 e k)
      ⟨List.idxOf (0 : Fin 2) (rowScatterDims N T C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi, column_apply]

/-- … and on the column axis, which the start index does not name, it is `0`. -/
theorem start_row1 (v : IVec ⟨1, ![T]⟩ 32) (e : Fin T) (k : Fin C) :
    (rowScatterDims N T C wf).start (ix2 e k) (broadcastInDim ⟨2, ![T, 1]⟩ ![0] wc v) 1 = 0 := by
  unfold ScatterDims.start
  have h1 : (1 : Fin 2) ∉ (rowScatterDims N T C wf).scatterDimsToOperandDims :=
    show (1 : Fin 2) ∉ [(0 : Fin 2)] by decide
  exact dif_neg h1

/-- A row update has no window coordinate on the (inserted) row axis … -/
theorem window_row0 (e : Fin T) (k : Fin C) : (rowScatterDims N T C wf).window (ix2 e k) 0 = 0 := by
  unfold ScatterDims.window
  have h0 : (0 : Fin 2) ∉ (rowScatterDims N T C wf).sKept :=
    show (0 : Fin 2) ∉ ((List.finRange 2).filter (· ∉ [(0 : Fin 2)])) by decide
  exact dif_neg h0

/-- … and its column as the window coordinate on the column axis. -/
theorem window_row1 (e : Fin T) (k : Fin C) : (rowScatterDims N T C wf).window (ix2 e k) 1 = k.val := by
  unfold ScatterDims.window
  have h1 : (1 : Fin 2) ∈ (rowScatterDims N T C wf).sKept :=
    show (1 : Fin 2) ∈ ((List.finRange 2).filter (· ∉ [(0 : Fin 2)])) by decide
  rw [dif_pos h1]
  rfl

/-- WHERE A ROW UPDATE LANDS: update `(e, k)` lands on entry `(i, k')` exactly when the index vector's entry `e`, read
    signed, is `i`, and the columns agree. -/
theorem resultIdx?_row (v : IVec ⟨1, ![T]⟩ 32) (e : Fin T) (k k' : Fin C) (i : Fin N) :
    (rowScatterDims N T C wf).resultIdx? (ix2 e k) (broadcastInDim ⟨2, ![T, 1]⟩ ![0] wc v) = some (ix2 i k')
      ↔ (v (ix1 e)).toInt = (i.val : ℤ) ∧ k = k' := by
  have hs0 := start_row0 wf wc v e k
  have hs1 := start_row1 wf wc v e k
  have hw0 := window_row0 (N := N) wf e k
  have hw1 := window_row1 (N := N) wf e k
  unfold ScatterDims.resultIdx?
  split
  · next h =>
    rw [Option.some.injEq]
    constructor
    · intro hEq
      have h0 := h 0
      have e0 := congrArg (fun f : (⟨2, ![N, C]⟩ : Shape).Idx => (f 0).val) hEq
      have e1 := congrArg (fun f : (⟨2, ![N, C]⟩ : Shape).Idx => (f 1).val) hEq
      simp only [hs0, hw0] at e0 h0
      simp only [hs1, hw1] at e1
      change ((v (ix1 e)).toInt + ((0 : ℕ) : ℤ)).toNat = i.val at e0
      change ((0 : ℤ) + ((k.val : ℕ) : ℤ)).toNat = k'.val at e1
      refine ⟨?_, Fin.ext ?_⟩
      · show (v (ix1 e)).toInt = (i.val : ℤ)
        omega
      · omega
    · rintro ⟨hEq, rfl⟩
      funext a
      refine Fin.ext ?_
      match a with
      | ⟨0, _⟩ =>
        show ((rowScatterDims N T C wf).start (ix2 e k) (broadcastInDim ⟨2, ![T, 1]⟩ ![0] wc v) 0
          + ((rowScatterDims N T C wf).window (ix2 e k) 0 : ℕ)).toNat = i.val
        rw [hs0, hw0, hEq]; omega
      | ⟨1, _⟩ =>
        show ((rowScatterDims N T C wf).start (ix2 e k) (broadcastInDim ⟨2, ![T, 1]⟩ ![0] wc v) 1
          + ((rowScatterDims N T C wf).window (ix2 e k) 1 : ℕ)).toNat = k.val
        rw [hs1, hw1]; omega
  · next h =>
    constructor
    · intro hEq; exact absurd hEq (by simp)
    · rintro ⟨hEq, rfl⟩
      exfalso; apply h
      intro a
      match a with
      | ⟨0, _⟩ =>
        show 0 ≤ (rowScatterDims N T C wf).start (ix2 e k) (broadcastInDim ⟨2, ![T, 1]⟩ ![0] wc v) 0
            + ((rowScatterDims N T C wf).window (ix2 e k) 0 : ℕ)
          ∧ (rowScatterDims N T C wf).start (ix2 e k) (broadcastInDim ⟨2, ![T, 1]⟩ ![0] wc v) 0
            + ((rowScatterDims N T C wf).window (ix2 e k) 0 : ℕ) < ((N : ℕ) : ℤ)
        rw [hs0, hw0, hEq]
        have : i.val < N := i.isLt
        omega
      | ⟨1, _⟩ =>
        show 0 ≤ (rowScatterDims N T C wf).start (ix2 e k) (broadcastInDim ⟨2, ![T, 1]⟩ ![0] wc v) 1
            + ((rowScatterDims N T C wf).window (ix2 e k) 1 : ℕ)
          ∧ (rowScatterDims N T C wf).start (ix2 e k) (broadcastInDim ⟨2, ![T, 1]⟩ ![0] wc v) 1
            + ((rowScatterDims N T C wf).window (ix2 e k) 1 : ℕ) < ((C : ℕ) : ℤ)
        rw [hs1, hw1]
        have : k.val < C := k.isLt
        omega

end Row

/-! ## The accumulating scatter read at an index -/

/-- A rank-1 index set is its one coordinate's range. -/
def idxEquiv1 {n : ℕ} : (⟨1, ![n]⟩ : Shape).Idx ≃ Fin n where
  toFun j := j 0
  invFun e := ix1 e
  left_inv j := (eq_ix1 j).symm
  right_inv _ := rfl

section VecSum
variable {N T : ℕ} (wf : ScatterDims.WF ⟨1, ![N]⟩ ⟨2, ![T, 1]⟩ ⟨1, ![T]⟩ [] [0] [0] 1)
  (wc : (⟨1, ![T]⟩ : Shape).BroadcastsInDim ⟨2, ![T, 1]⟩ ![0])

/-- THE VECTOR SCATTER-ADD AT ENTRY `i`: the operand's entry plus the sum of the updates whose index, read signed,
    is `i`. -/
theorem scatterAddVec_apply (x0 : FVec Ideal ⟨1, ![N]⟩ .f32) (v : IVec ⟨1, ![T]⟩ 32) (u : FVec Ideal ⟨1, ![T]⟩ .f32)
    (i : Fin N) :
    Host.scatterAdd (vecScatterDims N T wf) x0 (broadcastInDim ⟨2, ![T, 1]⟩ ![0] wc v) u (ix1 i)
      = x0 (ix1 i) + ∑ e ∈ Finset.univ.filter (fun e : Fin T => (v (ix1 e)).toInt = (i.val : ℤ)), u (ix1 e) := by
  show x0 (ix1 i) + ∑ j ∈ Finset.univ.filter (fun j : (⟨1, ![T]⟩ : Shape).Idx =>
      (vecScatterDims N T wf).resultIdx? j (broadcastInDim ⟨2, ![T, 1]⟩ ![0] wc v) = some (ix1 i)), u j = _
  refine congrArg (x0 (ix1 i) + ·) ?_
  refine Finset.sum_equiv idxEquiv1 (fun j => ?_) (fun j _ => ?_)
  · obtain ⟨e, rfl⟩ : ∃ e : Fin T, j = ix1 e := ⟨j 0, eq_ix1 j⟩
    simp only [Finset.mem_filter, Finset.mem_univ, true_and]
    exact resultIdx?_vec wf wc v e i
  · obtain ⟨e, rfl⟩ : ∃ e : Fin T, j = ix1 e := ⟨j 0, eq_ix1 j⟩
    rfl

/-- A vector scatter-add of nonnegative updates into nonnegative entries has nonnegative entries. -/
theorem scatterAddVec_nonneg (x0 : FVec Ideal ⟨1, ![N]⟩ .f32) (v : IVec ⟨1, ![T]⟩ 32) (u : FVec Ideal ⟨1, ![T]⟩ .f32)
    (hx : ∀ i, 0 ≤ x0 i) (hu : ∀ e, 0 ≤ u e) (i : Fin N) :
    0 ≤ Host.scatterAdd (vecScatterDims N T wf) x0 (broadcastInDim ⟨2, ![T, 1]⟩ ![0] wc v) u (ix1 i) := by
  rw [scatterAddVec_apply]
  exact add_nonneg (hx _) (Finset.sum_nonneg fun e _ => hu _)

end VecSum

section RowSum
variable {N T C : ℕ} (wf : ScatterDims.WF ⟨2, ![N, C]⟩ ⟨2, ![T, 1]⟩ ⟨2, ![T, C]⟩ [1] [0] [0] 1)
  (wc : (⟨1, ![T]⟩ : Shape).BroadcastsInDim ⟨2, ![T, 1]⟩ ![0])

/-- THE ROW SCATTER-ADD AT ENTRY `(i, k)`: the operand's entry plus the sum, over the rows whose index, read signed, is
    `i`, of the update's entry in column `k`. -/
theorem scatterAddRow_apply (x0 : FVec Ideal ⟨2, ![N, C]⟩ .f32) (v : IVec ⟨1, ![T]⟩ 32)
    (u : FVec Ideal ⟨2, ![T, C]⟩ .f32) (i : Fin N) (k : Fin C) :
    Host.scatterAdd (rowScatterDims N T C wf) x0 (broadcastInDim ⟨2, ![T, 1]⟩ ![0] wc v) u (ix2 i k)
      = x0 (ix2 i k) + ∑ e ∈ Finset.univ.filter (fun e : Fin T => (v (ix1 e)).toInt = (i.val : ℤ)), u (ix2 e k) := by
  show x0 (ix2 i k) + ∑ j ∈ Finset.univ.filter (fun j : (⟨2, ![T, C]⟩ : Shape).Idx =>
      (rowScatterDims N T C wf).resultIdx? j (broadcastInDim ⟨2, ![T, 1]⟩ ![0] wc v) = some (ix2 i k)), u j = _
  refine congrArg (x0 (ix2 i k) + ·) ?_
  refine Finset.sum_nbij' (fun j => j 0) (fun e => ix2 e k) (fun j hj => ?_) (fun e he => ?_) (fun j hj => ?_)
    (fun e _ => rfl) (fun j hj => ?_)
  · obtain ⟨e, k', rfl⟩ : ∃ (e : Fin T) (k' : Fin C), j = ix2 e k' := ⟨j 0, j 1, eq_ix2 j⟩
    exact Finset.mem_filter.2 ⟨Finset.mem_univ _, ((resultIdx?_row wf wc v e k' k i).1 (Finset.mem_filter.1 hj).2).1⟩
  · exact Finset.mem_filter.2 ⟨Finset.mem_univ _, (resultIdx?_row wf wc v e k k i).2 ⟨(Finset.mem_filter.1 he).2, rfl⟩⟩
  · obtain ⟨e, k', rfl⟩ : ∃ (e : Fin T) (k' : Fin C), j = ix2 e k' := ⟨j 0, j 1, eq_ix2 j⟩
    obtain rfl := ((resultIdx?_row wf wc v e k' k i).1 (Finset.mem_filter.1 hj).2).2
    rfl
  · obtain ⟨e, k', rfl⟩ : ∃ (e : Fin T) (k' : Fin C), j = ix2 e k' := ⟨j 0, j 1, eq_ix2 j⟩
    obtain rfl := ((resultIdx?_row wf wc v e k' k i).1 (Finset.mem_filter.1 hj).2).2
    rfl

end RowSum

/-! ## An index list with one self loop per node appended -/

/-- A sum over the `T = E + N` positions that satisfy `P` is the sum over the first `E` of them plus the sum over the
    last `N`. -/
theorem sum_filter_split {M : Type*} [AddCommMonoid M] {E N T : ℕ} (hT : E + N = T) (P : Fin T → Prop)
    [DecidablePred P] (f : Fin T → M) :
    ∑ e ∈ Finset.univ.filter P, f e
      = ∑ e ∈ (Finset.univ : Finset (Fin E)).filter (fun e => P ⟨e.val, by have := e.isLt; omega⟩),
          f ⟨e.val, by have := e.isLt; omega⟩
        + ∑ l ∈ (Finset.univ : Finset (Fin N)).filter (fun l => P ⟨E + l.val, by have := l.isLt; omega⟩),
          f ⟨E + l.val, by have := l.isLt; omega⟩ := by
  subst hT
  rw [Finset.sum_filter, Fin.sum_univ_add, Finset.sum_filter, Finset.sum_filter]
  rfl

/-- A nonnegative number below `2 ^ 31`, written as a 32-bit word and read back signed, is itself. -/
theorem toInt_ofNat_of_lt {l : ℕ} (hl : l < 2 ^ 31) : (BitVec.ofNat 32 l).toInt = (l : ℤ) := by
  rw [BitVec.toInt_eq_toNat_cond, BitVec.toNat_ofNat]
  have : l % 2 ^ 32 = l := Nat.mod_eq_of_lt (by omega)
  rw [this, if_pos (by omega)]

section ConcatRead
variable {α : Type} {E N T : ℕ}

/-- A two-part concatenation of vectors reads its first part at the first `E` positions … -/
theorem concat_vec_left (h1 : Shape.Concatenates [(⟨1, ![E]⟩ : Shape), ⟨1, ![N]⟩] ⟨1, ![T]⟩ 0)
    (a : (⟨1, ![E]⟩ : Shape).Idx → α) (b : (⟨1, ![N]⟩ : Shape).Idx → α) (e : Fin E) (he : e.val < T) :
    concatenate ⟨1, ![T]⟩ 0 [⟨⟨1, ![E]⟩, a⟩, ⟨⟨1, ![N]⟩, b⟩] h1 (ix1 ⟨e.val, he⟩) = a (ix1 e) := by
  refine concatenate_pair_apply_left 0 a b h1 (ix1 ⟨e.val, he⟩) rfl (ix1 e) fun c => ?_
  match c with
  | ⟨0, _⟩ => rfl

/-- … and its second part at the last `N`. -/
theorem concat_vec_right (h1 : Shape.Concatenates [(⟨1, ![E]⟩ : Shape), ⟨1, ![N]⟩] ⟨1, ![T]⟩ 0)
    (a : (⟨1, ![E]⟩ : Shape).Idx → α) (b : (⟨1, ![N]⟩ : Shape).Idx → α) (l : Fin N) (hl : E + l.val < T) :
    concatenate ⟨1, ![T]⟩ 0 [⟨⟨1, ![E]⟩, a⟩, ⟨⟨1, ![N]⟩, b⟩] h1 (ix1 ⟨E + l.val, hl⟩) = b (ix1 l) := by
  refine concatenate_pair_apply_right 0 a b h1 (ix1 ⟨E + l.val, hl⟩) rfl rfl (ix1 l)
    (fun c hc => absurd (Subsingleton.elim _ _) hc) ?_
  show l.val + E = E + l.val
  omega

variable {C : ℕ}

/-- A two-part concatenation of row blocks reads its first part at the first `E` rows … -/
theorem concat_row_left (h2 : Shape.Concatenates [(⟨2, ![E, C]⟩ : Shape), ⟨2, ![N, C]⟩] ⟨2, ![T, C]⟩ 0)
    (a : (⟨2, ![E, C]⟩ : Shape).Idx → α) (b : (⟨2, ![N, C]⟩ : Shape).Idx → α) (e : Fin E) (he : e.val < T) (k : Fin C) :
    concatenate ⟨2, ![T, C]⟩ 0 [⟨⟨2, ![E, C]⟩, a⟩, ⟨⟨2, ![N, C]⟩, b⟩] h2 (ix2 ⟨e.val, he⟩ k) = a (ix2 e k) := by
  refine concatenate_pair_apply_left 0 a b h2 (ix2 ⟨e.val, he⟩ k) rfl (ix2 e k) fun c => ?_
  match c with
  | ⟨0, _⟩ => rfl
  | ⟨1, _⟩ => rfl

/-- … and its second part at the last `N`. -/
theorem concat_row_right (h2 : Shape.Concatenates [(⟨2, ![E, C]⟩ : Shape), ⟨2, ![N, C]⟩] ⟨2, ![T, C]⟩ 0)
    (a : (⟨2, ![E, C]⟩ : Shape).Idx → α) (b : (⟨2, ![N, C]⟩ : Shape).Idx → α) (l : Fin N) (hl : E + l.val < T)
    (k : Fin C) :
    concatenate ⟨2, ![T, C]⟩ 0 [⟨⟨2, ![E, C]⟩, a⟩, ⟨⟨2, ![N, C]⟩, b⟩] h2 (ix2 ⟨E + l.val, hl⟩ k) = b (ix2 l k) := by
  refine concatenate_pair_apply_right 0 a b h2 (ix2 ⟨E + l.val, hl⟩ k) rfl rfl (ix2 l k) (fun c hc => ?_) ?_
  · match c with
    | ⟨0, _⟩ => exact absurd rfl hc
    | ⟨1, _⟩ => rfl
  · show l.val + E = E + l.val
    omega

/-- The extents of a two-part concatenation of vectors add up. -/
theorem concat_vec_extent (h1 : Shape.Concatenates [(⟨1, ![E]⟩ : Shape), ⟨1, ![N]⟩] ⟨1, ![T]⟩ 0) : E + N = T := by
  have h := h1.2.2
  simpa using h

end ConcatRead

/-- Among the loop positions `0, …, N − 1` (`N` below `2 ^ 31`), written as 32-bit words and read back signed, exactly
    position `i` reads `i`: a sum over the loop positions that read `i` is its one term. -/
theorem sum_loops {M : Type*} [AddCommMonoid M] {N : ℕ} (hN : N < 2 ^ 31) (i : Fin N) (g : Fin N → M) :
    ∑ l ∈ (Finset.univ : Finset (Fin N)).filter (fun l => (BitVec.ofNat 32 l.val).toInt = (i.val : ℤ)), g l = g i := by
  rw [Finset.sum_filter, Finset.sum_eq_single i]
  · rw [if_pos (toInt_ofNat_of_lt (by have := i.isLt; omega))]
  · intro l _ hl
    rw [if_neg]
    rw [toInt_ofNat_of_lt (by have := l.isLt; omega)]
    intro h
    exact hl (Fin.ext (by exact_mod_cast h))
  · intro h; exact absurd (Finset.mem_univ _) h

section WithLoops
variable {E N T : ℕ}

/-- THE VECTOR SCATTER-ADD OVER AN INDEX LIST WITH THE SELF LOOPS APPENDED is the scatter-add over the list itself, plus
    the loop updates pointwise: loop `i` lands on entry `i` and nowhere else. -/
theorem scatterAddVec_withLoops
    (wfT : ScatterDims.WF ⟨1, ![N]⟩ ⟨2, ![T, 1]⟩ ⟨1, ![T]⟩ [] [0] [0] 1)
    (wcT : (⟨1, ![T]⟩ : Shape).BroadcastsInDim ⟨2, ![T, 1]⟩ ![0])
    (wfE : ScatterDims.WF ⟨1, ![N]⟩ ⟨2, ![E, 1]⟩ ⟨1, ![E]⟩ [] [0] [0] 1)
    (wcE : (⟨1, ![E]⟩ : Shape).BroadcastsInDim ⟨2, ![E, 1]⟩ ![0])
    (h1 : Shape.Concatenates [(⟨1, ![E]⟩ : Shape), ⟨1, ![N]⟩] ⟨1, ![T]⟩ 0) (hN : N < 2 ^ 31)
    (x0 : FVec Ideal ⟨1, ![N]⟩ .f32) (v : IVec ⟨1, ![E]⟩ 32) (u1 : FVec Ideal ⟨1, ![E]⟩ .f32)
    (u2 : FVec Ideal ⟨1, ![N]⟩ .f32) :
    Host.scatterAdd (vecScatterDims N T wfT) x0
        (broadcastInDim ⟨2, ![T, 1]⟩ ![0] wcT
          (concatenate ⟨1, ![T]⟩ 0 [⟨⟨1, ![E]⟩, v⟩, ⟨⟨1, ![N]⟩, iotaInDim ⟨1, ![N]⟩ 32 0⟩] h1))
        (concatenate ⟨1, ![T]⟩ 0 [⟨⟨1, ![E]⟩, u1⟩, ⟨⟨1, ![N]⟩, u2⟩] h1)
      = addf (Host.scatterAdd (vecScatterDims N E wfE) x0 (broadcastInDim ⟨2, ![E, 1]⟩ ![0] wcE v) u1) u2 := by
  have hT := concat_vec_extent h1
  funext j
  obtain ⟨i, rfl⟩ : ∃ i : Fin N, j = ix1 i := ⟨j 0, eq_ix1 j⟩
  rw [addf_apply, scatterAddVec_apply, scatterAddVec_apply, add_assoc]
  refine congrArg (x0 (ix1 i) + ·) ?_
  refine (sum_filter_split hT _ _).trans ?_
  refine congrArg₂ (· + ·) ?_ ?_
  · refine Finset.sum_congr (Finset.filter_congr fun e _ => ?_) fun e _ => ?_
    · show (concatenate ⟨1, ![T]⟩ 0 [⟨⟨1, ![E]⟩, v⟩, ⟨⟨1, ![N]⟩, iotaInDim ⟨1, ![N]⟩ 32 0⟩] h1
          (ix1 ⟨e.val, _⟩)).toInt = _ ↔ _
      rw [concat_vec_left]
    · exact concat_vec_left h1 u1 u2 e _
  · refine Eq.trans ?_ (sum_loops hN i fun l => u2 (ix1 l))
    refine Finset.sum_congr (Finset.filter_congr fun l _ => ?_) fun l _ => ?_
    · show (concatenate ⟨1, ![T]⟩ 0 [⟨⟨1, ![E]⟩, v⟩, ⟨⟨1, ![N]⟩, iotaInDim ⟨1, ![N]⟩ 32 0⟩] h1
          (ix1 ⟨E + l.val, _⟩)).toInt = _ ↔ _
      rw [concat_vec_right]
      exact Iff.rfl
    · exact concat_vec_right h1 u1 u2 l _

/-- THE ROW SCATTER-ADD OVER AN INDEX LIST WITH THE SELF LOOPS APPENDED is the scatter-add over the list itself, plus
    the loop rows pointwise: loop row `i` lands on row `i` and nowhere else. -/
theorem scatterAddRow_withLoops {C : ℕ}
    (wfT : ScatterDims.WF ⟨2, ![N, C]⟩ ⟨2, ![T, 1]⟩ ⟨2, ![T, C]⟩ [1] [0] [0] 1)
    (wcT : (⟨1, ![T]⟩ : Shape).BroadcastsInDim ⟨2, ![T, 1]⟩ ![0])
    (wfE : ScatterDims.WF ⟨2, ![N, C]⟩ ⟨2, ![E, 1]⟩ ⟨2, ![E, C]⟩ [1] [0] [0] 1)
    (wcE : (⟨1, ![E]⟩ : Shape).BroadcastsInDim ⟨2, ![E, 1]⟩ ![0])
    (h1 : Shape.Concatenates [(⟨1, ![E]⟩ : Shape), ⟨1, ![N]⟩] ⟨1, ![T]⟩ 0)
    (h2 : Shape.Concatenates [(⟨2, ![E, C]⟩ : Shape), ⟨2, ![N, C]⟩] ⟨2, ![T, C]⟩ 0) (hN : N < 2 ^ 31)
    (x0 : FVec Ideal ⟨2, ![N, C]⟩ .f32) (v : IVec ⟨1, ![E]⟩ 32) (u1 : FVec Ideal ⟨2, ![E, C]⟩ .f32)
    (u2 : FVec Ideal ⟨2, ![N, C]⟩ .f32) :
    Host.scatterAdd (rowScatterDims N T C wfT) x0
        (broadcastInDim ⟨2, ![T, 1]⟩ ![0] wcT
          (concatenate ⟨1, ![T]⟩ 0 [⟨⟨1, ![E]⟩, v⟩, ⟨⟨1, ![N]⟩, iotaInDim ⟨1, ![N]⟩ 32 0⟩] h1))
        (concatenate ⟨2, ![T, C]⟩ 0 [⟨⟨2, ![E, C]⟩, u1⟩, ⟨⟨2, ![N, C]⟩, u2⟩] h2)
      = addf (Host.scatterAdd (rowScatterDims N E C wfE) x0 (broadcastInDim ⟨2, ![E, 1]⟩ ![0] wcE v) u1) u2 := by
  have hT := concat_vec_extent h1
  funext j
  obtain ⟨i, k, rfl⟩ : ∃ (i : Fin N) (k : Fin C), j = ix2 i k := ⟨j 0, j 1, eq_ix2 j⟩
  rw [addf_apply, scatterAddRow_apply, scatterAddRow_apply, add_assoc]
  refine congrArg (x0 (ix2 i k) + ·) ?_
  refine (sum_filter_split hT _ _).trans ?_
  refine congrArg₂ (· + ·) ?_ ?_
  · refine Finset.sum_congr (Finset.filter_congr fun e _ => ?_) fun e _ => ?_
    · show (concatenate ⟨1, ![T]⟩ 0 [⟨⟨1, ![E]⟩, v⟩, ⟨⟨1, ![N]⟩, iotaInDim ⟨1, ![N]⟩ 32 0⟩] h1
          (ix1 ⟨e.val, _⟩)).toInt = _ ↔ _
      rw [concat_vec_left]
    · exact concat_row_left h2 u1 u2 e _ k
  · refine Eq.trans ?_ (sum_loops hN i fun l => u2 (ix2 l k))
    refine Finset.sum_congr (Finset.filter_congr fun l _ => ?_) fun l _ => ?_
    · show (concatenate ⟨1, ![T]⟩ 0 [⟨⟨1, ![E]⟩, v⟩, ⟨⟨1, ![N]⟩, iotaInDim ⟨1, ![N]⟩ 32 0⟩] h1
          (ix1 ⟨E + l.val, _⟩)).toInt = _ ↔ _
      rw [concat_vec_right]
      exact Iff.rfl
    · exact concat_row_right h2 u1 u2 l _ k

end WithLoops

end LoopConcat

end
-- ==== Proof.LibLoopGather.lean ====
/-
  GATHERS OVER AN INDEX LIST WITH ONE SELF LOOP PER NODE APPENDED.

  A graph has `N` nodes and `E` edges, and an index vector `v` of `E` 32-bit words names a node per edge. Appending
  one self loop per node gives the `T = E + N` entries `v ++ [0, 1, …, N − 1]`: the two-part concatenation, along the
  one axis, of `v` and the iota of extent `N`. This file says that a gather over the `T` entries SPLITS into the same
  gather over the `E` edge entries and the identity on the `N` loop entries:

  * `gatherVec_apply` / `gatherRow_apply`: a gather of entries (of rows) of an operand at a one-column array of start
    indices, read at an index, is the operand at the start index read signed and clamped into `[0, N − 1]`;
  * `bcastCol_apply` / `bcastRows_apply`: a vector laid out as one column, and a column repeated along the rows, read
    at an index;
  * `wrapNeg_apply`, `wrapWord_ofNat`: the wrap of negative indices (`K` is added to a negative entry) at an index, and that
    it leaves the word of a natural number below `2 ^ 31` alone;
  * `concat1_left` / `concat1_right`, `concat2_left` / `concat2_right`: a two-part concatenation of vectors (of
    matrices, along the rows) read at an index of either part;
  * `gatherVec_withLoops` / `gatherRow_withLoops`: a gather at the wrapped indices `v ++ [0, …, N − 1]` is the gather at
    the wrapped `v` followed by the operand itself — loop entry `l` reads the operand at `l`.

  Every statement is over any extents `E`, `N`, `T`, `C` (the concatenation's side condition carries `T = E + N`), over
  literal shapes and indices built from coordinates, so that it applies to a printed operation by unification.
-/
import Idealize.ShloMosaic.Lib.Pipeline.Value
import Idealize.ShloMosaic.Lib.ValueIdx
import Idealize.ShloMosaic.Lib.IdealHost
import Idealize.ShloMosaic.PureOps.Ideal

noncomputable section

namespace LoopConcat

open Idealize.ShloMosaic Idealize.ShloMosaic.ValueIdx

variable {α : Type}

/-! ## The two gathers' dimension numbers -/

/-- The dimension numbers of a gather of ENTRIES of a vector `[N]` at start indices `[T, 1]` (one index per row), with
    result `[T]`: no offset axis, the operand's one axis collapsed, slice size one. Their conditions `wf` are a
    hypothesis, so that a record printed over literal extents is this one by unfolding. -/
abbrev vecGatherDims (N T : ℕ) (wf : GatherDims.WF ⟨1, ![N]⟩ ⟨2, ![T, 1]⟩ ⟨1, ![T]⟩ [] [0] [] [0] [] 1 ![1]) :
    GatherDims ⟨1, ![N]⟩ ⟨2, ![T, 1]⟩ ⟨1, ![T]⟩ where
  offsetDims := []
  collapsedSliceDims := [0]
  operandBatchingDims := []
  startIndicesBatchingDims := []
  startIndexMap := [0]
  indexVectorDim := 1
  sliceSizes := ![1]
  wf := wf

/-- The dimension numbers of a gather of ROWS of a matrix `[N, C]` at start indices `[T, 1]`, with result `[T, C]`:
    the result's second axis is the offset axis, the operand's first axis is collapsed, a slice is one whole row. -/
abbrev rowGatherDims (N T C : ℕ) (wf : GatherDims.WF ⟨2, ![N, C]⟩ ⟨2, ![T, 1]⟩ ⟨2, ![T, C]⟩ [1] [0] [] [0] [] 1 ![1, C]) :
    GatherDims ⟨2, ![N, C]⟩ ⟨2, ![T, 1]⟩ ⟨2, ![T, C]⟩ where
  offsetDims := [1]
  collapsedSliceDims := [0]
  operandBatchingDims := []
  startIndicesBatchingDims := []
  startIndexMap := [0]
  indexVectorDim := 1
  sliceSizes := ![1, C]
  wf := wf

/-! ## Layout operations read at an index -/

/-- A vector laid out as one column reads, at `(e, 0)`, the vector at `e`. -/
theorem bcastCol_apply {E : ℕ} (wc : (⟨1, ![E]⟩ : Shape).BroadcastsInDim ⟨2, ![E, 1]⟩ ![0])
    (p : (⟨1, ![E]⟩ : Shape).Idx → α) (e : Fin E) :
    broadcastInDim ⟨2, ![E, 1]⟩ ![0] wc p (ix2 e 0) = p (ix1 e) := by
  refine broadcastInDim_apply _ wc p (ix2 e 0) (ix1 e) fun a => ?_
  match a with
  | ⟨0, _⟩ =>
    show e.val = if E = 1 then 0 else e.val
    split
    · have := e.isLt; omega
    · rfl

/-- A column repeated along the rows reads, at `(e, k)`, the column at `(e, 0)`. -/
theorem bcastRows_apply {E C : ℕ} (wr : (⟨2, ![E, 1]⟩ : Shape).BroadcastsInDim ⟨2, ![E, C]⟩ ![0, 1])
    (q : (⟨2, ![E, 1]⟩ : Shape).Idx → α) (e : Fin E) (k : Fin C) :
    broadcastInDim ⟨2, ![E, C]⟩ ![0, 1] wr q (ix2 e k) = q (ix2 e 0) := by
  refine broadcastInDim_apply _ wr q (ix2 e k) (ix2 e 0) fun a => ?_
  match a with
  | ⟨0, _⟩ =>
    show e.val = if E = 1 then 0 else e.val
    split
    · have := e.isLt; omega
    · rfl
  | ⟨1, _⟩ => rfl

/-! ## The two gathers read at an index -/

/-- A gather of entries read at `e`, for ANY one-column array of start indices: the operand at the start index
    `idx (e, 0)`, read signed and clamped into `[0, N − 1]`. -/
theorem gatherVec_apply_col {N T w : ℕ} (hN : 0 < N)
    (wf : GatherDims.WF ⟨1, ![N]⟩ ⟨2, ![T, 1]⟩ ⟨1, ![T]⟩ [] [0] [] [0] [] 1 ![1])
    (x : (⟨1, ![N]⟩ : Shape).Idx → α) (idx : IVec ⟨2, ![T, 1]⟩ w) (e : Fin T) :
    Host.gather (vecGatherDims N T wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N T wf).start (ix1 e) idx 0 + (vecGatherDims N T wf).batchCoord (ix1 e) 0
    + (vecGatherDims N T wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N T wf).startIndexMap from List.mem_singleton.mpr rfl)]
  have hsi : (vecGatherDims N T wf).siIdx (ix1 e) ⟨List.idxOf (0 : Fin 1) (vecGatherDims N T wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE GATHER OF ENTRIES READ AT `e`: the operand at the start index `v e`, read signed and clamped into
    `[0, N − 1]`. -/
theorem gatherVec_apply {N T : ℕ} (hN : 0 < N)
    (wf : GatherDims.WF ⟨1, ![N]⟩ ⟨2, ![T, 1]⟩ ⟨1, ![T]⟩ [] [0] [] [0] [] 1 ![1])
    (wc : (⟨1, ![T]⟩ : Shape).BroadcastsInDim ⟨2, ![T, 1]⟩ ![0])
    (x : (⟨1, ![N]⟩ : Shape).Idx → α) (v : IVec ⟨1, ![T]⟩ 32) (e : Fin T) :
    Host.gather (vecGatherDims N T wf) x (broadcastInDim ⟨2, ![T, 1]⟩ ![0] wc v) (ix1 e)
      = x (ix1 ⟨min (v (ix1 e)).toInt.toNat (N - 1), by omega⟩) := by
  rw [gatherVec_apply_col hN]
  exact congrArg (fun z : BitVec 32 => x (ix1 ⟨min z.toInt.toNat (N - 1), by omega⟩)) (bcastCol_apply wc v e)

/-- A gather of rows read at `(e, k)`, for ANY one-column array of start indices: the operand's row at the start index
    `idx (e, 0)`, read signed and clamped into `[0, N − 1]`, at column `k`. -/
theorem gatherRow_apply_col {N T C w : ℕ} (hN : 0 < N)
    (wf : GatherDims.WF ⟨2, ![N, C]⟩ ⟨2, ![T, 1]⟩ ⟨2, ![T, C]⟩ [1] [0] [] [0] [] 1 ![1, C])
    (x : (⟨2, ![N, C]⟩ : Shape).Idx → α) (idx : IVec ⟨2, ![T, 1]⟩ w) (e : Fin T) (k : Fin C) :
    Host.gather (rowGatherDims N T C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N T C wf).start (ix2 e k) idx 0 + (rowGatherDims N T C wf).batchCoord (ix2 e k) 0
      + (rowGatherDims N T C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N T C wf).startIndexMap from List.mem_singleton.mpr rfl)]
    have hsi : (rowGatherDims N T C wf).siIdx (ix2 e k) ⟨List.idxOf (0 : Fin 2) (rowGatherDims N T C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N T C wf).start (ix2 e k) idx 1 + (rowGatherDims N T C wf).batchCoord (ix2 e k) 1
      + (rowGatherDims N T C wf).offCoord (ix2 e k) 1 = k.val
    have h10 : (1 : Fin 2) ∉ [(0 : Fin 2)] := by decide
    have h1 : (1 : Fin 2) ∉ (rowGatherDims N T C wf).startIndexMap := h10
    have hk : (1 : Fin 2) ∈ (rowGatherDims N T C wf).sKept :=
      (GatherDims.mem_sKept _ _).mpr ⟨h10, List.not_mem_nil⟩
    rw [GatherDims.batchCoord_eq_zero _ _ _ List.not_mem_nil]
    unfold GatherDims.start GatherDims.offCoord
    rw [dif_neg h1, dif_pos hk]
    simp only [Nat.zero_add, Nat.add_zero]
    rfl

/-- THE GATHER OF ROWS READ AT `(e, k)`: the operand's row at the start index `v e`, read signed and clamped into
    `[0, N − 1]`, at column `k`. -/
theorem gatherRow_apply {N T C : ℕ} (hN : 0 < N)
    (wf : GatherDims.WF ⟨2, ![N, C]⟩ ⟨2, ![T, 1]⟩ ⟨2, ![T, C]⟩ [1] [0] [] [0] [] 1 ![1, C])
    (wc : (⟨1, ![T]⟩ : Shape).BroadcastsInDim ⟨2, ![T, 1]⟩ ![0])
    (x : (⟨2, ![N, C]⟩ : Shape).Idx → α) (v : IVec ⟨1, ![T]⟩ 32) (e : Fin T) (k : Fin C) :
    Host.gather (rowGatherDims N T C wf) x (broadcastInDim ⟨2, ![T, 1]⟩ ![0] wc v) (ix2 e k)
      = x (ix2 ⟨min (v (ix1 e)).toInt.toNat (N - 1), by omega⟩ k) := by
  rw [gatherRow_apply_col hN]
  exact congrArg (fun z : BitVec 32 => x (ix2 ⟨min z.toInt.toNat (N - 1), by omega⟩ k)) (bcastCol_apply wc v e)

/-! ## The extents of a two-part concatenation -/

/-- A vector of `T` entries that is a vector of `E` entries followed by one of `N` entries has `T = E + N`. -/
theorem extent_concat1 {E N T : ℕ} (h1 : Shape.Concatenates [(⟨1, ![E]⟩ : Shape), ⟨1, ![N]⟩] ⟨1, ![T]⟩ 0) :
    E + N = T := by
  have e := h1.2.2
  simp only [List.map, List.sum_cons, List.sum_nil] at e
  rw [dif_pos trivial, dif_pos trivial] at e
  exact e

/-- A matrix of `T` rows that is a matrix of `E` rows above one of `N` rows has `T = E + N`. -/
theorem extent_concat2 {E N T C : ℕ}
    (h2 : Shape.Concatenates [(⟨2, ![E, C]⟩ : Shape), ⟨2, ![N, C]⟩] ⟨2, ![T, C]⟩ 0) : E + N = T := by
  have e := h2.2.2
  simp only [List.map, List.sum_cons, List.sum_nil] at e
  rw [dif_pos trivial, dif_pos trivial] at e
  exact e

/-! ## A two-part concatenation along the first axis, read at an index built from coordinates -/

/-- A vector of `E` entries followed by one of `N` entries reads, at a position below `E`, the first vector there. -/
theorem concat1_left {E N T : ℕ} (h1 : Shape.Concatenates [(⟨1, ![E]⟩ : Shape), ⟨1, ![N]⟩] ⟨1, ![T]⟩ 0)
    (a : (⟨1, ![E]⟩ : Shape).Idx → α) (b : (⟨1, ![N]⟩ : Shape).Idx → α) (e : Fin T) (he : e.val < E) :
    concatenate ⟨1, ![T]⟩ 0 [⟨⟨1, ![E]⟩, a⟩, ⟨⟨1, ![N]⟩, b⟩] h1 (ix1 e) = a (ix1 ⟨e.val, he⟩) :=
  concatenate_pair_apply_left 0 a b h1 (ix1 e) rfl (ix1 ⟨e.val, he⟩) fun c => by
    match c with
    | ⟨0, _⟩ => rfl

/-- … and, at a position `e` at or past `E`, the second vector at `e − E`. -/
theorem concat1_right {E N T : ℕ} (h1 : Shape.Concatenates [(⟨1, ![E]⟩ : Shape), ⟨1, ![N]⟩] ⟨1, ![T]⟩ 0)
    (a : (⟨1, ![E]⟩ : Shape).Idx → α) (b : (⟨1, ![N]⟩ : Shape).Idx → α) (e : Fin T) (he : E ≤ e.val) :
    concatenate ⟨1, ![T]⟩ 0 [⟨⟨1, ![E]⟩, a⟩, ⟨⟨1, ![N]⟩, b⟩] h1 (ix1 e)
      = b (ix1 ⟨e.val - E, by have := extent_concat1 h1; have := e.isLt; omega⟩) :=
  concatenate_pair_apply_right 0 a b h1 (ix1 e) rfl rfl (ix1 ⟨e.val - E, _⟩)
    (fun c hc => absurd (Subsingleton.elim _ _) hc) (by show e.val - E + E = e.val; omega)

/-- A matrix of `E` rows above one of `N` rows reads, at a row below `E`, the first matrix there. -/
theorem concat2_left {E N T C : ℕ}
    (h2 : Shape.Concatenates [(⟨2, ![E, C]⟩ : Shape), ⟨2, ![N, C]⟩] ⟨2, ![T, C]⟩ 0)
    (a : (⟨2, ![E, C]⟩ : Shape).Idx → α) (b : (⟨2, ![N, C]⟩ : Shape).Idx → α) (e : Fin T) (k : Fin C)
    (he : e.val < E) :
    concatenate ⟨2, ![T, C]⟩ 0 [⟨⟨2, ![E, C]⟩, a⟩, ⟨⟨2, ![N, C]⟩, b⟩] h2 (ix2 e k) = a (ix2 ⟨e.val, he⟩ k) :=
  concatenate_pair_apply_left 0 a b h2 (ix2 e k) rfl (ix2 ⟨e.val, he⟩ k) fun c => by
    match c with
    | ⟨0, _⟩ => rfl
    | ⟨1, _⟩ => rfl

/-- … and, at a row `e` at or past `E`, the second matrix at row `e − E`. -/
theorem concat2_right {E N T C : ℕ}
    (h2 : Shape.Concatenates [(⟨2, ![E, C]⟩ : Shape), ⟨2, ![N, C]⟩] ⟨2, ![T, C]⟩ 0)
    (a : (⟨2, ![E, C]⟩ : Shape).Idx → α) (b : (⟨2, ![N, C]⟩ : Shape).Idx → α) (e : Fin T) (k : Fin C)
    (he : E ≤ e.val) :
    concatenate ⟨2, ![T, C]⟩ 0 [⟨⟨2, ![E, C]⟩, a⟩, ⟨⟨2, ![N, C]⟩, b⟩] h2 (ix2 e k)
      = b (ix2 ⟨e.val - E, by have := extent_concat2 h2; have := e.isLt; omega⟩ k) :=
  concatenate_pair_apply_right 0 a b h2 (ix2 e k) rfl rfl (ix2 ⟨e.val - E, _⟩ k)
    (fun c => by
      match c with
      | ⟨0, _⟩ => exact fun hc => absurd rfl hc
      | ⟨1, _⟩ => exact fun _ => rfl)
    (by show e.val - E + E = e.val; omega)

/-! ## The wrap of negative indices -/

/-- The wrap of negative indices a gather's index vector goes through first: an entry that is negative as a signed
    word gets `K` (the operand's extent) added, the others are kept. -/
abbrev wrapNeg {s : Shape} (w0 : (⟨0, ![]⟩ : Shape).BroadcastsInDim s ![]) (K : BitVec 32) (v : IVec s 32) : IVec s 32 :=
  select (cmpi .slt v (broadcastInDim s ![] w0 (constantI ⟨0, ![]⟩ 32 0#32)))
    (addi v (broadcastInDim s ![] w0 (constantI ⟨0, ![]⟩ 32 K))) v

/-- The wrap on one word. -/
def wrapWord (K z : BitVec 32) : BitVec 32 := Scalar.select (IntOp.cmpi .slt z 0#32) (IntOp.addi z K) z

/-- The wrap at an index is the wrap of the entry there. -/
theorem wrapNeg_apply {s : Shape} (w0 : (⟨0, ![]⟩ : Shape).BroadcastsInDim s ![]) (K : BitVec 32) (v : IVec s 32)
    (i : s.Idx) : wrapNeg w0 K v i = wrapWord K (v i) := rfl

/-- The word of a natural number below `2 ^ 31` reads, signed, that number. -/
theorem ofNat_toInt_of_lt {l : ℕ} (h : l < 2 ^ 31) : (BitVec.ofNat 32 l).toInt = (l : Int) := by
  have h1 : (BitVec.ofNat 32 l).toNat = l := by
    rw [BitVec.toNat_ofNat]; exact Nat.mod_eq_of_lt (by omega)
  rw [BitVec.toInt_eq_toNat_cond, h1]
  split
  · rfl
  · omega

/-- The word of a natural number below `2 ^ 31` is not negative, so the wrap leaves it alone. -/
theorem wrapWord_ofNat {l : ℕ} (h : l < 2 ^ 31) (K : BitVec 32) : wrapWord K (BitVec.ofNat 32 l) = BitVec.ofNat 32 l := by
  have hs : (BitVec.ofNat 32 l).slt 0#32 = false := by
    rw [BitVec.slt, ofNat_toInt_of_lt h]; simp
  unfold wrapWord IntOp.cmpi
  simp only [hs]
  rfl

/-- The wrapped index list `v ++ [0, …, N − 1]` at an edge entry is the wrapped `v` there. -/
theorem wrapNeg_withLoops_left {E N T : ℕ} (h1 : Shape.Concatenates [(⟨1, ![E]⟩ : Shape), ⟨1, ![N]⟩] ⟨1, ![T]⟩ 0)
    (w0T : (⟨0, ![]⟩ : Shape).BroadcastsInDim ⟨1, ![T]⟩ ![]) (w0E : (⟨0, ![]⟩ : Shape).BroadcastsInDim ⟨1, ![E]⟩ ![])
    (K : BitVec 32) (v : IVec ⟨1, ![E]⟩ 32) (e : Fin T) (he : e.val < E) :
    wrapNeg w0T K (concatenate ⟨1, ![T]⟩ 0 [⟨⟨1, ![E]⟩, v⟩, ⟨⟨1, ![N]⟩, iotaInDim ⟨1, ![N]⟩ 32 0⟩] h1) (ix1 e)
      = wrapNeg w0E K v (ix1 ⟨e.val, he⟩) := by
  rw [wrapNeg_apply, wrapNeg_apply, concat1_left h1 _ _ e he]

/-- The wrapped index list `v ++ [0, …, N − 1]` at loop entry `E + l`, read signed and clamped into `[0, N − 1]`,
    is `l`: the word of `l < N < 2 ^ 31` is not negative, and `l ≤ N − 1`. -/
theorem wrapNeg_withLoops_right {E N T : ℕ} (hN : N < 2 ^ 31)
    (h1 : Shape.Concatenates [(⟨1, ![E]⟩ : Shape), ⟨1, ![N]⟩] ⟨1, ![T]⟩ 0)
    (w0T : (⟨0, ![]⟩ : Shape).BroadcastsInDim ⟨1, ![T]⟩ ![])
    (K : BitVec 32) (v : IVec ⟨1, ![E]⟩ 32) (e : Fin T) (he : E ≤ e.val) :
    min (wrapNeg w0T K (concatenate ⟨1, ![T]⟩ 0 [⟨⟨1, ![E]⟩, v⟩, ⟨⟨1, ![N]⟩, iotaInDim ⟨1, ![N]⟩ 32 0⟩] h1)
      (ix1 e)).toInt.toNat (N - 1) = e.val - E := by
  have hT := extent_concat1 h1
  have hl : e.val - E < N := by have := e.isLt; omega
  rw [wrapNeg_apply, concat1_right h1 _ _ e he]
  show min (wrapWord K (BitVec.ofNat 32 (e.val - E))).toInt.toNat (N - 1) = e.val - E
  rw [wrapWord_ofNat (by omega), ofNat_toInt_of_lt (by omega), Int.toNat_natCast]
  omega

/-! ## Gathers over the index list with the self loops appended -/

/-- A GATHER OF ENTRIES at the wrapped index list `v ++ [0, …, N − 1]` is the gather at the wrapped `v` followed by the
    operand itself: loop entry `l` reads the operand at `l`. -/
theorem gatherVec_withLoops {E N T : ℕ}
    (wfT : GatherDims.WF ⟨1, ![N]⟩ ⟨2, ![T, 1]⟩ ⟨1, ![T]⟩ [] [0] [] [0] [] 1 ![1])
    (wcT : (⟨1, ![T]⟩ : Shape).BroadcastsInDim ⟨2, ![T, 1]⟩ ![0])
    (w0T : (⟨0, ![]⟩ : Shape).BroadcastsInDim ⟨1, ![T]⟩ ![])
    (wfE : GatherDims.WF ⟨1, ![N]⟩ ⟨2, ![E, 1]⟩ ⟨1, ![E]⟩ [] [0] [] [0] [] 1 ![1])
    (wcE : (⟨1, ![E]⟩ : Shape).BroadcastsInDim ⟨2, ![E, 1]⟩ ![0])
    (w0E : (⟨0, ![]⟩ : Shape).BroadcastsInDim ⟨1, ![E]⟩ ![])
    (h1 : Shape.Concatenates [(⟨1, ![E]⟩ : Shape), ⟨1, ![N]⟩] ⟨1, ![T]⟩ 0)
    (hN : N < 2 ^ 31) (hN0 : 0 < N)
    (x : (⟨1, ![N]⟩ : Shape).Idx → α) (v : IVec ⟨1, ![E]⟩ 32) (K : BitVec 32) :
    Host.gather (vecGatherDims N T wfT) x (broadcastInDim ⟨2, ![T, 1]⟩ ![0] wcT
        (wrapNeg w0T K (concatenate ⟨1, ![T]⟩ 0 [⟨⟨1, ![E]⟩, v⟩, ⟨⟨1, ![N]⟩, iotaInDim ⟨1, ![N]⟩ 32 0⟩] h1)))
      = concatenate ⟨1, ![T]⟩ 0
          [⟨⟨1, ![E]⟩, Host.gather (vecGatherDims N E wfE) x (broadcastInDim ⟨2, ![E, 1]⟩ ![0] wcE (wrapNeg w0E K v))⟩,
            ⟨⟨1, ![N]⟩, x⟩] h1 := by
  funext j
  obtain ⟨e, rfl⟩ : ∃ e : Fin T, j = ix1 e := ⟨j 0, eq_ix1 j⟩
  refine (gatherVec_apply hN0 wfT wcT x _ e).trans ?_
  by_cases he : e.val < E
  · refine Eq.trans ?_ (concat1_left h1 _ x e he).symm
    refine Eq.trans ?_ (gatherVec_apply hN0 wfE wcE x _ ⟨e.val, he⟩).symm
    exact congrArg (fun z : BitVec 32 => x (ix1 ⟨min z.toInt.toNat (N - 1), by omega⟩))
      (wrapNeg_withLoops_left h1 w0T w0E K v e he)
  · have he' : E ≤ e.val := Nat.le_of_not_lt he
    refine Eq.trans ?_ (concat1_right h1 _ x e he').symm
    exact congrArg x (congrArg (ix1 (n := N)) (Fin.ext (wrapNeg_withLoops_right hN h1 w0T K v e he')))

/-- A GATHER OF ROWS at the wrapped index list `v ++ [0, …, N − 1]` is the gather at the wrapped `v` above the operand
    itself: loop entry `l` reads the operand's row `l`. -/
theorem gatherRow_withLoops {E N T C : ℕ}
    (wfT : GatherDims.WF ⟨2, ![N, C]⟩ ⟨2, ![T, 1]⟩ ⟨2, ![T, C]⟩ [1] [0] [] [0] [] 1 ![1, C])
    (wcT : (⟨1, ![T]⟩ : Shape).BroadcastsInDim ⟨2, ![T, 1]⟩ ![0])
    (w0T : (⟨0, ![]⟩ : Shape).BroadcastsInDim ⟨1, ![T]⟩ ![])
    (wfE : GatherDims.WF ⟨2, ![N, C]⟩ ⟨2, ![E, 1]⟩ ⟨2, ![E, C]⟩ [1] [0] [] [0] [] 1 ![1, C])
    (wcE : (⟨1, ![E]⟩ : Shape).BroadcastsInDim ⟨2, ![E, 1]⟩ ![0])
    (w0E : (⟨0, ![]⟩ : Shape).BroadcastsInDim ⟨1, ![E]⟩ ![])
    (h1 : Shape.Concatenates [(⟨1, ![E]⟩ : Shape), ⟨1, ![N]⟩] ⟨1, ![T]⟩ 0)
    (h2 : Shape.Concatenates [(⟨2, ![E, C]⟩ : Shape), ⟨2, ![N, C]⟩] ⟨2, ![T, C]⟩ 0)
    (hN : N < 2 ^ 31) (hN0 : 0 < N)
    (x : (⟨2, ![N, C]⟩ : Shape).Idx → α) (v : IVec ⟨1, ![E]⟩ 32) (K : BitVec 32) :
    Host.gather (rowGatherDims N T C wfT) x (broadcastInDim ⟨2, ![T, 1]⟩ ![0] wcT
        (wrapNeg w0T K (concatenate ⟨1, ![T]⟩ 0 [⟨⟨1, ![E]⟩, v⟩, ⟨⟨1, ![N]⟩, iotaInDim ⟨1, ![N]⟩ 32 0⟩] h1)))
      = concatenate ⟨2, ![T, C]⟩ 0
          [⟨⟨2, ![E, C]⟩, Host.gather (rowGatherDims N E C wfE) x (broadcastInDim ⟨2, ![E, 1]⟩ ![0] wcE (wrapNeg w0E K v))⟩,
            ⟨⟨2, ![N, C]⟩, x⟩] h2 := by
  funext j
  obtain ⟨e, k, rfl⟩ : ∃ (e : Fin T) (k : Fin C), j = ix2 e k := ⟨j 0, j 1, eq_ix2 j⟩
  refine (gatherRow_apply hN0 wfT wcT x _ e k).trans ?_
  by_cases he : e.val < E
  · refine Eq.trans ?_ (concat2_left h2 _ x e k he).symm
    refine Eq.trans ?_ (gatherRow_apply hN0 wfE wcE x _ ⟨e.val, he⟩ k).symm
    exact congrArg (fun z : BitVec 32 => x (ix2 ⟨min z.toInt.toNat (N - 1), by omega⟩ k))
      (wrapNeg_withLoops_left h1 w0T w0E K v e he)
  · have he' : E ≤ e.val := Nat.le_of_not_lt he
    refine Eq.trans ?_ (concat2_right h2 _ x e k he').symm
    exact congrArg x (congrArg (fun r : Fin N => ix2 r k) (Fin.ext (wrapNeg_withLoops_right hN h1 w0T K v e he')))

end LoopConcat

end
-- ==== Proof.LibLoopLayout.lean ====
/-
  POINTWISE PRODUCTS AND BROADCASTS OVER A LIST WITH ONE SELF LOOP PER NODE APPENDED.

  A graph has `N` nodes and `E` edges; appending one self loop per node to a per-edge vector gives `T = E + N` entries,
  the two-part concatenation of the `E` edge entries and the `N` loop entries (of `E` and `N` rows of width `C`, for a
  per-edge matrix). This file says that the layout and pointwise operations over the `T` entries SPLIT into the same
  operation over each part:

  * `mulf_concat1` / `mulf_concat2`: a product of two concatenations is the concatenation of the products;
  * `spread_concat`: a concatenated vector laid out as a column and repeated along the rows is the concatenation of
    the two parts each repeated along its rows;
  * `splat_concat`: a scalar broadcast to `T` entries is the concatenation of its broadcasts to `E` and to `N`.

  Every statement is over any extents `E`, `N`, `T`, `C` (the concatenation's side condition carries `T = E + N`), over
  literal shapes, so that it applies to a printed operation by unification. Each is proved index by index: an index
  is split into its coordinates, and the first coordinate falls in the edge part or in the loop part.
-/
import proofs.«152121_j6150393168665_2_alg».proof.Proof.LibLoopGather

noncomputable section

namespace LoopConcat

open Idealize.ShloMosaic Idealize.ShloMosaic.ValueIdx

variable {α : Type}

/-! ## Pointwise products of concatenations -/

/-- A product of two concatenated vectors is the concatenation of the products of the parts. -/
theorem mulf_concat1 {E N T : ℕ} (h1 : Shape.Concatenates [(⟨1, ![E]⟩ : Shape), ⟨1, ![N]⟩] ⟨1, ![T]⟩ 0)
    (a a' : FVec Ideal ⟨1, ![E]⟩ .f32) (b b' : FVec Ideal ⟨1, ![N]⟩ .f32) :
    mulf (concatenate ⟨1, ![T]⟩ 0 [⟨⟨1, ![E]⟩, a⟩, ⟨⟨1, ![N]⟩, b⟩] h1)
        (concatenate ⟨1, ![T]⟩ 0 [⟨⟨1, ![E]⟩, a'⟩, ⟨⟨1, ![N]⟩, b'⟩] h1)
      = concatenate ⟨1, ![T]⟩ 0 [⟨⟨1, ![E]⟩, mulf a a'⟩, ⟨⟨1, ![N]⟩, mulf b b'⟩] h1 := by
  funext j
  obtain ⟨e, rfl⟩ : ∃ e : Fin T, j = ix1 e := ⟨j 0, eq_ix1 j⟩
  rw [mulf_apply]
  by_cases he : e.val < E
  · rw [concat1_left h1 a b e he, concat1_left h1 a' b' e he, concat1_left h1 (mulf a a') (mulf b b') e he]
    rfl
  · have he' : E ≤ e.val := Nat.le_of_not_lt he
    rw [concat1_right h1 a b e he', concat1_right h1 a' b' e he', concat1_right h1 (mulf a a') (mulf b b') e he']
    rfl

/-- A product of two concatenated matrices is the concatenation of the products of the parts. -/
theorem mulf_concat2 {E N T C : ℕ}
    (h2 : Shape.Concatenates [(⟨2, ![E, C]⟩ : Shape), ⟨2, ![N, C]⟩] ⟨2, ![T, C]⟩ 0)
    (a a' : FVec Ideal ⟨2, ![E, C]⟩ .f32) (b b' : FVec Ideal ⟨2, ![N, C]⟩ .f32) :
    mulf (concatenate ⟨2, ![T, C]⟩ 0 [⟨⟨2, ![E, C]⟩, a⟩, ⟨⟨2, ![N, C]⟩, b⟩] h2)
        (concatenate ⟨2, ![T, C]⟩ 0 [⟨⟨2, ![E, C]⟩, a'⟩, ⟨⟨2, ![N, C]⟩, b'⟩] h2)
      = concatenate ⟨2, ![T, C]⟩ 0 [⟨⟨2, ![E, C]⟩, mulf a a'⟩, ⟨⟨2, ![N, C]⟩, mulf b b'⟩] h2 := by
  funext j
  obtain ⟨e, k, rfl⟩ : ∃ (e : Fin T) (k : Fin C), j = ix2 e k := ⟨j 0, j 1, eq_ix2 j⟩
  rw [mulf_apply]
  by_cases he : e.val < E
  · rw [concat2_left h2 a b e k he, concat2_left h2 a' b' e k he, concat2_left h2 (mulf a a') (mulf b b') e k he]
    rfl
  · have he' : E ≤ e.val := Nat.le_of_not_lt he
    rw [concat2_right h2 a b e k he', concat2_right h2 a' b' e k he',
      concat2_right h2 (mulf a a') (mulf b b') e k he']
    rfl

/-! ## Broadcasts of concatenations -/

/-- A concatenated vector laid out as one column and repeated along the rows is the concatenation of the two parts,
    each entry repeated along its row. -/
theorem spread_concat {E N T C : ℕ} (h1 : Shape.Concatenates [(⟨1, ![E]⟩ : Shape), ⟨1, ![N]⟩] ⟨1, ![T]⟩ 0)
    (h2 : Shape.Concatenates [(⟨2, ![E, C]⟩ : Shape), ⟨2, ![N, C]⟩] ⟨2, ![T, C]⟩ 0)
    (wcT : (⟨1, ![T]⟩ : Shape).BroadcastsInDim ⟨2, ![T, 1]⟩ ![0])
    (wr : (⟨2, ![T, 1]⟩ : Shape).BroadcastsInDim ⟨2, ![T, C]⟩ ![0, 1])
    (p : (⟨1, ![E]⟩ : Shape).Idx → α) (q : (⟨1, ![N]⟩ : Shape).Idx → α) :
    broadcastInDim ⟨2, ![T, C]⟩ ![0, 1] wr (broadcastInDim ⟨2, ![T, 1]⟩ ![0] wcT
        (concatenate ⟨1, ![T]⟩ 0 [⟨⟨1, ![E]⟩, p⟩, ⟨⟨1, ![N]⟩, q⟩] h1))
      = concatenate ⟨2, ![T, C]⟩ 0
          [⟨⟨2, ![E, C]⟩, fun j => p (ix1 (j 0))⟩, ⟨⟨2, ![N, C]⟩, fun j => q (ix1 (j 0))⟩] h2 := by
  funext j
  obtain ⟨e, k, rfl⟩ : ∃ (e : Fin T) (k : Fin C), j = ix2 e k := ⟨j 0, j 1, eq_ix2 j⟩
  rw [bcastRows_apply wr _ e k, bcastCol_apply wcT _ e]
  by_cases he : e.val < E
  · rw [concat1_left h1 p q e he, concat2_left h2 _ _ e k he]
    rfl
  · have he' : E ≤ e.val := Nat.le_of_not_lt he
    rw [concat1_right h1 p q e he', concat2_right h2 _ _ e k he']
    rfl

/-- A scalar broadcast to `T` entries is the concatenation of its broadcasts to `E` and to `N` entries. -/
theorem splat_concat {E N T : ℕ} (h1 : Shape.Concatenates [(⟨1, ![E]⟩ : Shape), ⟨1, ![N]⟩] ⟨1, ![T]⟩ 0)
    (w0T : (⟨0, ![]⟩ : Shape).BroadcastsInDim ⟨1, ![T]⟩ ![]) (w0E : (⟨0, ![]⟩ : Shape).BroadcastsInDim ⟨1, ![E]⟩ ![])
    (w0N : (⟨0, ![]⟩ : Shape).BroadcastsInDim ⟨1, ![N]⟩ ![]) (c : (⟨0, ![]⟩ : Shape).Idx → α) :
    broadcastInDim ⟨1, ![T]⟩ ![] w0T c
      = concatenate ⟨1, ![T]⟩ 0
          [⟨⟨1, ![E]⟩, broadcastInDim ⟨1, ![E]⟩ ![] w0E c⟩, ⟨⟨1, ![N]⟩, broadcastInDim ⟨1, ![N]⟩ ![] w0N c⟩] h1 := by
  funext j
  obtain ⟨e, rfl⟩ : ∃ e : Fin T, j = ix1 e := ⟨j 0, eq_ix1 j⟩
  rw [broadcastInDim_scalar_apply]
  by_cases he : e.val < E
  · rw [concat1_left h1 _ _ e he, broadcastInDim_scalar_apply]
  · have he' : E ≤ e.val := Nat.le_of_not_lt he
    rw [concat1_right h1 _ _ e he', broadcastInDim_scalar_apply]

end LoopConcat

end
-- ==== Proof.LibColumnCasts.lean ====
import Idealize.ShloMosaic.Lib.Pipeline.Value
import Idealize.ShloMosaic.Lib.ValueIdx

/-! # Column casts read at an index

A vector of length `a` seen as an `a × 1` column (what a sum along the last axis that keeps the axis produces),
and an `a × 1` column seen as a vector again. Both casts keep the row-major position: entry `i` of the vector is
entry `(i, 0)` of the column. Stated for any extent `a` and any element type, over indices written with
`ix1` / `ix2`, so that they apply to a printed cast by unification. -/

namespace ColumnCasts

open Idealize.ShloMosaic Idealize.ShloMosaic.ValueIdx

variable {α : Type}

/-- A length-`a` vector cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column cast to a length-`a` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end ColumnCasts
-- ==== Proof.GcnBridge.lean ====
/-
  One graph-convolution layer with symmetric normalisation, two ways.

  A graph has N nodes and E edges (source `src e`, target `dst e`, 32-bit words read signed); node r has a
  normalisation factor `dis r`, a finite number that is not negative (one over the square root of a degree, or zero). Write
  h = x · w for the linear map and h(r) for its row r. A gather of rows reads row `clamp (wrap z)` for an index word z: a
  negative z has N added first, and the result is clamped into [0, N − 1]. An accumulating scatter adds an update to the
  row its index names, read signed and NOT wrapped or clamped: an update whose index is outside [0, N − 1] is dropped.

  THE REFERENCE appends one self loop per node to the edge list (T = E + N entries), scales the message of entry e by
  dis(src e) · dis(dst e), and scatters:
      out(i) = max( Σ_{e ≤ T, dst e = i} h(src e) · (dis(src e) · dis(dst e)) + b, 0 ).
  THE KERNEL scales the rows first, h'(r) = h(r) · dis(r), aggregates h' over the E real edges only, adds the self loop
  densely and scales the sum once:
      out(i) = max( (Σ_{e ≤ E, dst e = i} h'(src e) + h'(i)) · dis(i) + b, 0 ).

  They agree: the loop entry E + i reads and lands on node i and contributes h(i) · (dis i · dis i); an edge that lands
  on i has dst e = i exactly (it is in range, so the wrap and the clamp leave it alone), so its second factor is dis(i);
  and multiplication by the finite nonnegative number dis(i) distributes over the finite sum of extended reals (this is
  the one place where it matters that dis(i) is neither negative nor infinite: over the extended reals
  (a + b) · c = a · c + b · c can fail for a negative or infinite c).
-/
import proofs.«152121_j6150393168665_2_alg».proof.Proof.GcnDefs
import proofs.«152121_j6150393168665_2_alg».proof.Proof.LibLoopScatter
import proofs.«152121_j6150393168665_2_alg».proof.Proof.LibLoopLayout
import proofs.«152121_j6150393168665_2_alg».proof.Proof.LibColumnCasts
import Idealize.ShloMosaic.Lib.IdealHost
import Idealize.ShloMosaic.PureOps.Ideal.Laws

noncomputable section

open scoped BigOperators

namespace Gcn

open Idealize.ShloMosaic Idealize.ShloMosaic.ValueIdx LoopConcat

/-! ## The arithmetic on the extended reals -/

/-- Multiplication on the right by a finite number that is not negative distributes over a finite sum. -/
theorem sum_mul_fin {ι : Type*} (s : Finset ι) (f : ι → EReal) {d : EReal} (h0 : 0 ≤ d) (ht : d ≠ ⊤) :
    (∑ e ∈ s, f e) * d = ∑ e ∈ s, f e * d := by
  classical
  induction s using Finset.induction_on with
  | empty => simp
  | insert a s ha ih =>
    rw [Finset.sum_insert ha, Finset.sum_insert ha, EReal.right_distrib_of_nonneg_of_ne_top h0 ht, ih]

/-- THE NODE IDENTITY. Edge terms `a e` with factors `de e`, the node's own term `h`, the node's factor `d` finite and not
    negative: scaling each term first, summing, adding the node's own scaled term and scaling the total once more is
    scaling every edge term by `de e · d` and the node's own by `d · d`. -/
theorem node_identity {ι : Type*} (s : Finset ι) (a de : ι → EReal) (h d : EReal) (h0 : 0 ≤ d) (ht : d ≠ ⊤) :
    ((0 + ∑ e ∈ s, a e * de e) + h * d) * d = (0 + ∑ e ∈ s, a e * (de e * d)) + h * (d * d) := by
  rw [EReal.right_distrib_of_nonneg_of_ne_top h0 ht, EReal.right_distrib_of_nonneg_of_ne_top h0 ht, zero_mul,
    sum_mul_fin s _ h0 ht, mul_assoc]
  refine congrArg (fun z => (0 + z) + h * (d * d)) (Finset.sum_congr rfl fun e _ => ?_)
  rw [mul_assoc]

/-! ## The normalisation factor of a degree -/

/-- One over the square root of a positive degree and zero otherwise is a finite number that is not negative, whatever
    the degree (an infinite degree gives zero; a degree that is not positive is not looked at). -/
theorem invSqrt_fin (g : EReal) :
    0 ≤ Scalar.select (Ideal.cmp .ogt g 0) (Ideal.rsqrt g) (0 : EReal)
      ∧ Scalar.select (Ideal.cmp .ogt g 0) (Ideal.rsqrt g) (0 : EReal) ≠ ⊤ := by
  unfold Scalar.select Ideal.cmp
  by_cases hg : (0 : EReal) < g
  · have h1 : BitVec.ofBool (decide ((0 : EReal) < g)) = 1 := by simp [hg]
    rw [if_pos h1]
    induction g using EReal.rec with
    | bot => exact absurd hg (by simp)
    | top => exact ⟨le_of_eq Ideal.rsqrt_top.symm, by rw [Ideal.rsqrt_top]; exact EReal.zero_ne_top⟩
    | coe r =>
      have hr : 0 < r := by exact_mod_cast hg
      rw [Ideal.rsqrt_coe, if_neg (not_lt.mpr hr.le), if_neg hr.ne']
      exact ⟨by exact_mod_cast (inv_nonneg.mpr (Real.sqrt_nonneg r)), EReal.coe_ne_top _⟩
  · have h1 : ¬ BitVec.ofBool (decide ((0 : EReal) < g)) = 1 := by simp [hg]
    rw [if_neg h1]
    exact ⟨le_refl _, EReal.zero_ne_top⟩

/-- THE NORMALISATION VECTOR of a graph: the degree of node i counts the entries of the target list, with one self loop
    per node appended, that name i (an accumulating scatter of ones into zeros); the factor is one over the square root
    of a positive degree and zero otherwise. Spelt operation by operation as a host program computes it. -/
def normOf {N E T : ℕ} (wfs : ScatterDims.WF ⟨1, ![N]⟩ ⟨2, ![T, 1]⟩ ⟨1, ![T]⟩ [] [0] [0] 1)
    (wcT : (⟨1, ![T]⟩ : Shape).BroadcastsInDim ⟨2, ![T, 1]⟩ ![0])
    (w0N : (⟨0, ![]⟩ : Shape).BroadcastsInDim ⟨1, ![N]⟩ ![])
    (w0T : (⟨0, ![]⟩ : Shape).BroadcastsInDim ⟨1, ![T]⟩ ![])
    (h1 : Shape.Concatenates [(⟨1, ![E]⟩ : Shape), ⟨1, ![N]⟩] ⟨1, ![T]⟩ 0)
    (dst : IVec ⟨1, ![E]⟩ 32) : FVec Ideal ⟨1, ![N]⟩ .f32 :=
  select
    (cmpf .ogt
      (Host.scatterAdd (vecScatterDims N T wfs)
        (broadcastInDim ⟨1, ![N]⟩ ![] w0N (constant (F := Ideal) ⟨0, ![]⟩ .f32 0x00000000#32))
        (broadcastInDim ⟨2, ![T, 1]⟩ ![0] wcT
          (concatenate ⟨1, ![T]⟩ 0 [⟨⟨1, ![E]⟩, dst⟩, ⟨⟨1, ![N]⟩, iotaInDim ⟨1, ![N]⟩ 32 0⟩] h1))
        (broadcastInDim ⟨1, ![T]⟩ ![] w0T (constant (F := Ideal) ⟨0, ![]⟩ .f32 0x3F800000#32)))
      (broadcastInDim ⟨1, ![N]⟩ ![] w0N (constant (F := Ideal) ⟨0, ![]⟩ .f32 0x00000000#32)))
    (Host.rsqrt
      (Host.scatterAdd (vecScatterDims N T wfs)
        (broadcastInDim ⟨1, ![N]⟩ ![] w0N (constant (F := Ideal) ⟨0, ![]⟩ .f32 0x00000000#32))
        (broadcastInDim ⟨2, ![T, 1]⟩ ![0] wcT
          (concatenate ⟨1, ![T]⟩ 0 [⟨⟨1, ![E]⟩, dst⟩, ⟨⟨1, ![N]⟩, iotaInDim ⟨1, ![N]⟩ 32 0⟩] h1))
        (broadcastInDim ⟨1, ![T]⟩ ![] w0T (constant (F := Ideal) ⟨0, ![]⟩ .f32 0x3F800000#32))))
    (broadcastInDim ⟨1, ![N]⟩ ![] w0N (constant (F := Ideal) ⟨0, ![]⟩ .f32 0x00000000#32))

/-- Every normalisation factor is a finite number that is not negative. -/
theorem normOf_fin {N E T : ℕ} (wfs : ScatterDims.WF ⟨1, ![N]⟩ ⟨2, ![T, 1]⟩ ⟨1, ![T]⟩ [] [0] [0] 1)
    (wcT : (⟨1, ![T]⟩ : Shape).BroadcastsInDim ⟨2, ![T, 1]⟩ ![0])
    (w0N : (⟨0, ![]⟩ : Shape).BroadcastsInDim ⟨1, ![N]⟩ ![])
    (w0T : (⟨0, ![]⟩ : Shape).BroadcastsInDim ⟨1, ![T]⟩ ![])
    (h1 : Shape.Concatenates [(⟨1, ![E]⟩ : Shape), ⟨1, ![N]⟩] ⟨1, ![T]⟩ 0)
    (dst : IVec ⟨1, ![E]⟩ 32) (i : Fin N) :
    0 ≤ normOf wfs wcT w0N w0T h1 dst (ix1 i) ∧ normOf wfs wcT w0N w0T h1 dst (ix1 i) ≠ ⊤ := by
  unfold normOf
  rw [select_apply, cmpf_apply, broadcastInDim_scalar_apply, constant_apply, Ideal.ofBits_zero_f32]
  exact invSqrt_fin _

/-! ## Index words that land in range -/

/-- A word that reads, signed, a number that is not negative is left alone by the wrap of negative indices. -/
theorem wrapWord_of_nonneg {K z : BitVec 32} (hz : 0 ≤ z.toInt) : wrapWord K z = z := by
  have hs : z.slt 0#32 = false := by
    rw [BitVec.slt]
    exact decide_eq_false (by simpa using hz)
  unfold wrapWord IntOp.cmpi
  simp only [hs]
  rfl

/-- An index word that reads, signed, the node `i` is wrapped and clamped to `i` itself. -/
theorem clamp_wrap_of_eq {N : ℕ} {K z : BitVec 32} (i : Fin N) (hz : z.toInt = (i.val : ℤ)) :
    min (wrapWord K z).toInt.toNat (N - 1) = i.val := by
  rw [wrapWord_of_nonneg (by omega), hz, Int.toNat_natCast]
  have := i.isLt
  omega

/-! ## The two layers -/

section Layers

variable {N E T C K : ℕ}

/-- THE REFERENCE'S LAYER from the linear map `h`: the edge list with one self loop per node appended, each message
    scaled by the product of the two gathered normalisation factors, scattered onto the targets; the bias; the maximum
    with zero. Spelt operation by operation as a host program computes it. -/
def refLayer
    (wfvT : GatherDims.WF ⟨1, ![N]⟩ ⟨2, ![T, 1]⟩ ⟨1, ![T]⟩ [] [0] [] [0] [] 1 ![1])
    (wfrT : GatherDims.WF ⟨2, ![N, C]⟩ ⟨2, ![T, 1]⟩ ⟨2, ![T, C]⟩ [1] [0] [] [0] [] 1 ![1, C])
    (wfsT : ScatterDims.WF ⟨2, ![N, C]⟩ ⟨2, ![T, 1]⟩ ⟨2, ![T, C]⟩ [1] [0] [0] 1)
    (wcT : (⟨1, ![T]⟩ : Shape).BroadcastsInDim ⟨2, ![T, 1]⟩ ![0])
    (wrT : (⟨2, ![T, 1]⟩ : Shape).BroadcastsInDim ⟨2, ![T, C]⟩ ![0, 1])
    (w0T : (⟨0, ![]⟩ : Shape).BroadcastsInDim ⟨1, ![T]⟩ ![])
    (w0NC : (⟨0, ![]⟩ : Shape).BroadcastsInDim ⟨2, ![N, C]⟩ ![])
    (wb1 : (⟨1, ![C]⟩ : Shape).BroadcastsInDim ⟨2, ![1, C]⟩ ![1])
    (wb2 : (⟨2, ![1, C]⟩ : Shape).BroadcastsInDim ⟨2, ![N, C]⟩ ![0, 1])
    (h1 : Shape.Concatenates [(⟨1, ![E]⟩ : Shape), ⟨1, ![N]⟩] ⟨1, ![T]⟩ 0)
    (Kw : BitVec 32)
    (h : FVec Ideal ⟨2, ![N, C]⟩ .f32) (b : FVec Ideal ⟨1, ![C]⟩ .f32) (src dst : IVec ⟨1, ![E]⟩ 32)
    (dis : FVec Ideal ⟨1, ![N]⟩ .f32) : FVec Ideal ⟨2, ![N, C]⟩ .f32 :=
  maximumf
    (addf
      (Host.scatterAdd (rowScatterDims N T C wfsT)
        (broadcastInDim ⟨2, ![N, C]⟩ ![] w0NC (constant (F := Ideal) ⟨0, ![]⟩ .f32 0x00000000#32))
        (broadcastInDim ⟨2, ![T, 1]⟩ ![0] wcT
          (concatenate ⟨1, ![T]⟩ 0 [⟨⟨1, ![E]⟩, dst⟩, ⟨⟨1, ![N]⟩, iotaInDim ⟨1, ![N]⟩ 32 0⟩] h1))
        (mulf
          (Host.gather (rowGatherDims N T C wfrT) h (broadcastInDim ⟨2, ![T, 1]⟩ ![0] wcT
            (wrapNeg w0T Kw (concatenate ⟨1, ![T]⟩ 0 [⟨⟨1, ![E]⟩, src⟩, ⟨⟨1, ![N]⟩, iotaInDim ⟨1, ![N]⟩ 32 0⟩] h1))))
          (broadcastInDim ⟨2, ![T, C]⟩ ![0, 1] wrT (broadcastInDim ⟨2, ![T, 1]⟩ ![0] wcT
            (mulf
              (Host.gather (vecGatherDims N T wfvT) dis (broadcastInDim ⟨2, ![T, 1]⟩ ![0] wcT
                (wrapNeg w0T Kw (concatenate ⟨1, ![T]⟩ 0 [⟨⟨1, ![E]⟩, src⟩, ⟨⟨1, ![N]⟩, iotaInDim ⟨1, ![N]⟩ 32 0⟩] h1))))
              (Host.gather (vecGatherDims N T wfvT) dis (broadcastInDim ⟨2, ![T, 1]⟩ ![0] wcT
                (wrapNeg w0T Kw (concatenate ⟨1, ![T]⟩ 0 [⟨⟨1, ![E]⟩, dst⟩, ⟨⟨1, ![N]⟩, iotaInDim ⟨1, ![N]⟩ 32 0⟩] h1)))))))))
      (broadcastInDim ⟨2, ![N, C]⟩ ![0, 1] wb2 (broadcastInDim ⟨2, ![1, C]⟩ ![1] wb1 b)))
    (broadcastInDim ⟨2, ![N, C]⟩ ![] w0NC (constant (F := Ideal) ⟨0, ![]⟩ .f32 0x00000000#32))

/-- THE KERNEL'S LAYER: the rows scaled first (`prescaled`), gathered and scattered over the real edges only, then the
    self term added, the sum scaled once, the bias added and the maximum with zero taken (`postscaled`). -/
def kerLayer
    (wfrE : GatherDims.WF ⟨2, ![N, C]⟩ ⟨2, ![E, 1]⟩ ⟨2, ![E, C]⟩ [1] [0] [] [0] [] 1 ![1, C])
    (wfsE : ScatterDims.WF ⟨2, ![N, C]⟩ ⟨2, ![E, 1]⟩ ⟨2, ![E, C]⟩ [1] [0] [0] 1)
    (wcE : (⟨1, ![E]⟩ : Shape).BroadcastsInDim ⟨2, ![E, 1]⟩ ![0])
    (w0E : (⟨0, ![]⟩ : Shape).BroadcastsInDim ⟨1, ![E]⟩ ![])
    (w0NC : (⟨0, ![]⟩ : Shape).BroadcastsInDim ⟨2, ![N, C]⟩ ![])
    (hsc : (⟨1, ![N]⟩ : Shape).ShapeCasts ⟨2, ![N, 1]⟩) (hsb : (⟨1, ![C]⟩ : Shape).ShapeCasts ⟨2, ![1, C]⟩)
    (Kw : BitVec 32)
    (x : FVec Ideal ⟨2, ![N, K]⟩ .f32) (w : FVec Ideal ⟨2, ![K, C]⟩ .f32) (b : FVec Ideal ⟨1, ![C]⟩ .f32)
    (src dst : IVec ⟨1, ![E]⟩ 32) (dis : FVec Ideal ⟨1, ![N]⟩ .f32) : FVec Ideal ⟨2, ![N, C]⟩ .f32 :=
  postscaled
    (Host.scatterAdd (rowScatterDims N E C wfsE)
      (broadcastInDim ⟨2, ![N, C]⟩ ![] w0NC (constant (F := Ideal) ⟨0, ![]⟩ .f32 0x00000000#32))
      (broadcastInDim ⟨2, ![E, 1]⟩ ![0] wcE dst)
      (Host.gather (rowGatherDims N E C wfrE) (prescaled x w (shapeCast ⟨2, ![N, 1]⟩ dis hsc))
        (broadcastInDim ⟨2, ![E, 1]⟩ ![0] wcE (wrapNeg w0E Kw src))))
    (prescaled x w (shapeCast ⟨2, ![N, 1]⟩ dis hsc))
    (shapeCast ⟨2, ![N, 1]⟩ dis hsc)
    (shapeCast ⟨2, ![1, C]⟩ b hsb)

/-- A length-`C` vector cast to a `1 × C` row reads, at `(0, q)`, the vector at `q`. -/
theorem shapeCast_row_apply {α : Type} (b : (⟨1, ![C]⟩ : Shape).Idx → α)
    (hsb : (⟨1, ![C]⟩ : Shape).ShapeCasts ⟨2, ![1, C]⟩) (u : Fin 1) (q : Fin C) :
    shapeCast ⟨2, ![1, C]⟩ b hsb (ix2 u q) = b (ix1 q) :=
  shapeCast_apply b hsb _ _ (by
    have hu : u.val = 0 := by omega
    rw [Shape.rowMajor_val_two, Shape.rowMajor_val_one]
    show q.val = u.val * C + q.val
    rw [hu, Nat.zero_mul, Nat.zero_add])

/-- The reference's layer with the self loops split off: the scatter over the real edges of the scaled gathered rows,
    plus, densely, each node's own row scaled by the square of its factor. -/
theorem refLayer_split
    (wfvT : GatherDims.WF ⟨1, ![N]⟩ ⟨2, ![T, 1]⟩ ⟨1, ![T]⟩ [] [0] [] [0] [] 1 ![1])
    (wfrT : GatherDims.WF ⟨2, ![N, C]⟩ ⟨2, ![T, 1]⟩ ⟨2, ![T, C]⟩ [1] [0] [] [0] [] 1 ![1, C])
    (wfsT : ScatterDims.WF ⟨2, ![N, C]⟩ ⟨2, ![T, 1]⟩ ⟨2, ![T, C]⟩ [1] [0] [0] 1)
    (wcT : (⟨1, ![T]⟩ : Shape).BroadcastsInDim ⟨2, ![T, 1]⟩ ![0])
    (wrT : (⟨2, ![T, 1]⟩ : Shape).BroadcastsInDim ⟨2, ![T, C]⟩ ![0, 1])
    (w0T : (⟨0, ![]⟩ : Shape).BroadcastsInDim ⟨1, ![T]⟩ ![])
    (w0NC : (⟨0, ![]⟩ : Shape).BroadcastsInDim ⟨2, ![N, C]⟩ ![])
    (wb1 : (⟨1, ![C]⟩ : Shape).BroadcastsInDim ⟨2, ![1, C]⟩ ![1])
    (wb2 : (⟨2, ![1, C]⟩ : Shape).BroadcastsInDim ⟨2, ![N, C]⟩ ![0, 1])
    (h1 : Shape.Concatenates [(⟨1, ![E]⟩ : Shape), ⟨1, ![N]⟩] ⟨1, ![T]⟩ 0)
    (h2 : Shape.Concatenates [(⟨2, ![E, C]⟩ : Shape), ⟨2, ![N, C]⟩] ⟨2, ![T, C]⟩ 0)
    (wfvE : GatherDims.WF ⟨1, ![N]⟩ ⟨2, ![E, 1]⟩ ⟨1, ![E]⟩ [] [0] [] [0] [] 1 ![1])
    (wfrE : GatherDims.WF ⟨2, ![N, C]⟩ ⟨2, ![E, 1]⟩ ⟨2, ![E, C]⟩ [1] [0] [] [0] [] 1 ![1, C])
    (wfsE : ScatterDims.WF ⟨2, ![N, C]⟩ ⟨2, ![E, 1]⟩ ⟨2, ![E, C]⟩ [1] [0] [0] 1)
    (wcE : (⟨1, ![E]⟩ : Shape).BroadcastsInDim ⟨2, ![E, 1]⟩ ![0])
    (w0E : (⟨0, ![]⟩ : Shape).BroadcastsInDim ⟨1, ![E]⟩ ![])
    (hN : N < 2 ^ 31) (hN0 : 0 < N) (Kw : BitVec 32)
    (h : FVec Ideal ⟨2, ![N, C]⟩ .f32) (b : FVec Ideal ⟨1, ![C]⟩ .f32) (src dst : IVec ⟨1, ![E]⟩ 32)
    (dis : FVec Ideal ⟨1, ![N]⟩ .f32) :
    refLayer wfvT wfrT wfsT wcT wrT w0T w0NC wb1 wb2 h1 Kw h b src dst dis
      = maximumf
          (addf
            (addf
              (Host.scatterAdd (rowScatterDims N E C wfsE)
                (broadcastInDim ⟨2, ![N, C]⟩ ![] w0NC (constant (F := Ideal) ⟨0, ![]⟩ .f32 0x00000000#32))
                (broadcastInDim ⟨2, ![E, 1]⟩ ![0] wcE dst)
                (mulf
                  (Host.gather (rowGatherDims N E C wfrE) h (broadcastInDim ⟨2, ![E, 1]⟩ ![0] wcE (wrapNeg w0E Kw src)))
                  (fun j => (mulf
                    (Host.gather (vecGatherDims N E wfvE) dis (broadcastInDim ⟨2, ![E, 1]⟩ ![0] wcE (wrapNeg w0E Kw src)))
                    (Host.gather (vecGatherDims N E wfvE) dis (broadcastInDim ⟨2, ![E, 1]⟩ ![0] wcE (wrapNeg w0E Kw dst))))
                    (ix1 (j 0)))))
              (mulf h (fun j => (mulf dis dis) (ix1 (j 0)))))
            (broadcastInDim ⟨2, ![N, C]⟩ ![0, 1] wb2 (broadcastInDim ⟨2, ![1, C]⟩ ![1] wb1 b)))
          (broadcastInDim ⟨2, ![N, C]⟩ ![] w0NC (constant (F := Ideal) ⟨0, ![]⟩ .f32 0x00000000#32)) := by
  unfold refLayer
  rw [gatherVec_withLoops wfvT wcT w0T wfvE wcE w0E h1 hN hN0 dis src Kw,
    gatherVec_withLoops wfvT wcT w0T wfvE wcE w0E h1 hN hN0 dis dst Kw,
    mulf_concat1 h1,
    gatherRow_withLoops wfrT wcT w0T wfrE wcE w0E h1 h2 hN hN0 h src Kw,
    spread_concat h1 h2 wcT wrT,
    mulf_concat2 h2,
    scatterAddRow_withLoops wfsT wcT wfsE wcE h1 h2 hN]

/-- THE TWO LAYERS AGREE, when `h` is the linear map `x · w` entry by entry and every normalisation factor is a finite number
    that is not negative. Index by index: the reference's loops are split off (`refLayer_split`), both scatters are read
    as the finite sum over the edges that land on the node, a landing edge's target factor is the node's own, and the
    node identity moves the node's factor inside the sum. -/
theorem layers_eq
    (wfvT : GatherDims.WF ⟨1, ![N]⟩ ⟨2, ![T, 1]⟩ ⟨1, ![T]⟩ [] [0] [] [0] [] 1 ![1])
    (wfrT : GatherDims.WF ⟨2, ![N, C]⟩ ⟨2, ![T, 1]⟩ ⟨2, ![T, C]⟩ [1] [0] [] [0] [] 1 ![1, C])
    (wfsT : ScatterDims.WF ⟨2, ![N, C]⟩ ⟨2, ![T, 1]⟩ ⟨2, ![T, C]⟩ [1] [0] [0] 1)
    (wcT : (⟨1, ![T]⟩ : Shape).BroadcastsInDim ⟨2, ![T, 1]⟩ ![0])
    (wrT : (⟨2, ![T, 1]⟩ : Shape).BroadcastsInDim ⟨2, ![T, C]⟩ ![0, 1])
    (w0T : (⟨0, ![]⟩ : Shape).BroadcastsInDim ⟨1, ![T]⟩ ![])
    (w0NC : (⟨0, ![]⟩ : Shape).BroadcastsInDim ⟨2, ![N, C]⟩ ![])
    (wb1 : (⟨1, ![C]⟩ : Shape).BroadcastsInDim ⟨2, ![1, C]⟩ ![1])
    (wb2 : (⟨2, ![1, C]⟩ : Shape).BroadcastsInDim ⟨2, ![N, C]⟩ ![0, 1])
    (h1 : Shape.Concatenates [(⟨1, ![E]⟩ : Shape), ⟨1, ![N]⟩] ⟨1, ![T]⟩ 0)
    (h2 : Shape.Concatenates [(⟨2, ![E, C]⟩ : Shape), ⟨2, ![N, C]⟩] ⟨2, ![T, C]⟩ 0)
    (wfvE : GatherDims.WF ⟨1, ![N]⟩ ⟨2, ![E, 1]⟩ ⟨1, ![E]⟩ [] [0] [] [0] [] 1 ![1])
    (wfrE : GatherDims.WF ⟨2, ![N, C]⟩ ⟨2, ![E, 1]⟩ ⟨2, ![E, C]⟩ [1] [0] [] [0] [] 1 ![1, C])
    (wfsE : ScatterDims.WF ⟨2, ![N, C]⟩ ⟨2, ![E, 1]⟩ ⟨2, ![E, C]⟩ [1] [0] [0] 1)
    (wcE : (⟨1, ![E]⟩ : Shape).BroadcastsInDim ⟨2, ![E, 1]⟩ ![0])
    (w0E : (⟨0, ![]⟩ : Shape).BroadcastsInDim ⟨1, ![E]⟩ ![])
    (hsc : (⟨1, ![N]⟩ : Shape).ShapeCasts ⟨2, ![N, 1]⟩) (hsb : (⟨1, ![C]⟩ : Shape).ShapeCasts ⟨2, ![1, C]⟩)
    (hN : N < 2 ^ 31) (hN0 : 0 < N) (Kw : BitVec 32)
    (x : FVec Ideal ⟨2, ![N, K]⟩ .f32) (w : FVec Ideal ⟨2, ![K, C]⟩ .f32) (b : FVec Ideal ⟨1, ![C]⟩ .f32)
    (src dst : IVec ⟨1, ![E]⟩ 32) (dis : FVec Ideal ⟨1, ![N]⟩ .f32) (h : FVec Ideal ⟨2, ![N, C]⟩ .f32)
    (hh : ∀ (r : Fin N) (q : Fin C), h (ix2 r q) = ∑ k : Fin K, x (ix2 r k) * w (ix2 k q))
    (hdis : ∀ i : Fin N, 0 ≤ dis (ix1 i) ∧ dis (ix1 i) ≠ ⊤) :
    kerLayer wfrE wfsE wcE w0E w0NC hsc hsb Kw x w b src dst dis
      = refLayer wfvT wfrT wfsT wcT wrT w0T w0NC wb1 wb2 h1 Kw h b src dst dis := by
  rw [refLayer_split wfvT wfrT wfsT wcT wrT w0T w0NC wb1 wb2 h1 h2 wfvE wfrE wfsE wcE w0E hN hN0]
  funext j
  obtain ⟨i, k, rfl⟩ : ∃ (i : Fin N) (k : Fin C), j = ix2 i k := ⟨j 0, j 1, eq_ix2 j⟩
  have hd := hdis i
  have hD2 : ∀ r : Fin N, shapeCast ⟨2, ![N, 1]⟩ dis hsc (ix2 r (0 : Fin 1)) = dis (ix1 r) :=
    fun r => ColumnCasts.shapeCast_a_a1_apply dis hsc r 0
  have hHP : ∀ (r : Fin N) (q : Fin C),
      prescaled x w (shapeCast ⟨2, ![N, 1]⟩ dis hsc) (ix2 r q) = h (ix2 r q) * dis (ix1 r) :=
    fun r q => by rw [prescaled_apply, hD2, hh]
  have hB2 : shapeCast ⟨2, ![1, C]⟩ b hsb (ix2 (0 : Fin 1) k) = b (ix1 k) := shapeCast_row_apply b hsb 0 k
  have hbb : broadcastInDim ⟨2, ![N, C]⟩ ![0, 1] wb2 (broadcastInDim ⟨2, ![1, C]⟩ ![1] wb1 b) (ix2 i k) = b (ix1 k) := by
    refine (broadcastInDim_apply _ wb2 _ (ix2 i k) (ix2 (0 : Fin 1) k) fun a => ?_).trans
      (broadcastInDim_apply _ wb1 b _ _ fun a => ?_)
    · match a with
      | ⟨0, _⟩ => show 0 = if (1 : ℕ) = 1 then 0 else _; rw [if_pos rfl]
      | ⟨1, _⟩ =>
        show k.val = if C = 1 then 0 else k.val
        split
        · have := k.isLt; omega
        · rfl
    · match a with
      | ⟨0, _⟩ =>
        show k.val = if C = 1 then 0 else k.val
        split
        · have := k.isLt; omega
        · rfl
  have hz : broadcastInDim ⟨2, ![N, C]⟩ ![] w0NC (constant (F := Ideal) ⟨0, ![]⟩ .f32 0x00000000#32) (ix2 i k) = 0 := by
    rw [broadcastInDim_scalar_apply, constant_apply, Ideal.ofBits_zero_f32]
  unfold kerLayer
  rw [postscaled_apply, maximumf_apply, addf_apply, addf_apply, scatterAddRow_apply, scatterAddRow_apply, hz, hD2, hHP,
    hB2, hbb, mulf_apply]
  have hnode := node_identity (Finset.univ.filter fun e : Fin E => (dst (ix1 e)).toInt = (i.val : ℤ))
    (fun e => h (ix2 ⟨min (wrapNeg w0E Kw src (ix1 e)).toInt.toNat (N - 1), by omega⟩ k))
    (fun e => dis (ix1 ⟨min (wrapNeg w0E Kw src (ix1 e)).toInt.toNat (N - 1), by omega⟩))
    (h (ix2 i k)) (dis (ix1 i)) hd.1 hd.2
  refine congrArg (fun z => max (z + b (ix1 k)) 0) ?_
  refine Eq.trans ?_ (hnode.trans ?_)
  · refine congrArg (fun z => ((0 + z) + h (ix2 i k) * dis (ix1 i)) * dis (ix1 i)) (Finset.sum_congr rfl fun e _ => ?_)
    rw [gatherRow_apply hN0, hHP]
  · refine congrArg₂ (fun z y => (0 + z) + h (ix2 i k) * y) (Finset.sum_congr rfl fun e he => ?_) ?_
    · rw [mulf_apply, gatherRow_apply hN0]
      show _ = _ * (mulf (Host.gather (vecGatherDims N E wfvE) dis (broadcastInDim ⟨2, ![E, 1]⟩ ![0] wcE (wrapNeg w0E Kw src)))
        (Host.gather (vecGatherDims N E wfvE) dis (broadcastInDim ⟨2, ![E, 1]⟩ ![0] wcE (wrapNeg w0E Kw dst))) (ix1 e))
      rw [mulf_apply, gatherVec_apply hN0, gatherVec_apply hN0]
      have hi : (⟨min (wrapNeg w0E Kw dst (ix1 e)).toInt.toNat (N - 1), by omega⟩ : Fin N) = i :=
        Fin.ext (by
          show min (wrapWord Kw (dst (ix1 e))).toInt.toNat (N - 1) = i.val
          exact clamp_wrap_of_eq i (Finset.mem_filter.1 he).2)
      rw [hi]
    · rfl

end Layers

end Gcn

end
-- ==== Proof.LibConcatCongr.lean ====
/-
  A concatenation of two parts depends on the parts' values only — as a CONGRUENCE rule.

  A two-part concatenation `concatenate t ax [⟨s₁, a⟩, ⟨s₂, b⟩] h` carries a side condition `h` whose statement
  mentions the list of parts (through the parts' shapes), so a simplification's automatic congruence does not descend
  into the list, and rewrite rules never reach the operands `a`, `b` standing inside it. Declared a congruence rule
  where it is needed (`attribute [local congr] Idealize.ShloMosaic.concatenate_pair_congr`), this lemma makes the
  simplification rewrite the two operands like any other argument: reading a list of host operations back as one
  composed term then also rewrites what a concatenation joins, instead of leaving the operands as unread buffer
  contents after a prefix of the operations.
-/
import Idealize.ShloMosaic.Lib.Pipeline.Value

noncomputable section

namespace Idealize.ShloMosaic

/-- A concatenation of two parts depends on the parts' values only: equal first parts and equal second parts give
    equal concatenations, the side condition (which speaks of the parts' shapes alone) being the same. -/
theorem concatenate_pair_congr {α : Type} {t : Shape} {ax : Fin t.rank} {s₁ s₂ : Shape}
    {a a' : s₁.Idx → α} {b b' : s₂.Idx → α} (h : Shape.Concatenates [s₁, s₂] t ax) (ha : a = a') (hb : b = b') :
    concatenate t ax [⟨s₁, a⟩, ⟨s₂, b⟩] h = concatenate t ax [⟨s₁, a'⟩, ⟨s₂, b'⟩] h := by
  subst ha hb; rfl

end Idealize.ShloMosaic

end
-- ==== Proof.KernelValue.lean ====
/-
  The idealized kernel program's result as ONE function of its arguments.

  The program computes, from the node features x, the weights w, the bias b and the edge array (row 0 the sources, row 1
  the targets): the normalisation vector of the targets (`normK`), the row-scaled linear map (its first dense region),
  the aggregate of the scaled rows over the real edges (a gather and an accumulating scatter between the regions), and
  the scaled, biased, clipped sum (its second dense region). Reading the buffer contents boundary by boundary — a host
  stretch applies its operations to what the previous boundary left, a region leaves in its output array the whole-array
  function its blocks tile — the result buffer ends at `result x w b edges`, the kernel's layer of `Gcn`.
-/
import proofs.«152121_j6150393168665_2_alg».proof.Proof.KernelRun
import proofs.«152121_j6150393168665_2_alg».proof.Proof.Region0Value
import proofs.«152121_j6150393168665_2_alg».proof.Proof.Region1Value
import proofs.«152121_j6150393168665_2_alg».proof.Proof.GcnBridge
import proofs.«152121_j6150393168665_2_alg».proof.Proof.LibConcatCongr
import Idealize.ShloMosaic.Lib.StableHlo.Run

noncomputable section

namespace Cert.KernelIdeal.KernelValue

open Cert.KernelIdeal Cert.KernelIdeal.Gen
open Idealize.ShloMosaic Idealize.ShloMosaic.TcCoe Idealize.SL.Sem Idealize.ShloMosaic.StableHlo

/-! ## The pieces, as functions of the arguments -/

/-- The edges' sources: row 0 of the edge array, as a vector. -/
def srcOf (ei : IVec S2x1600000 32) : IVec S1600000 32 :=
  shapeCast S1600000 (extractStridedSlice S1x1600000 ![0, 0] ei Facts₀.slices_S2x1600000_S1x1600000_0_0) Facts₀.shapeCasts_S1x1600000_S1600000

/-- The edges' targets: row 1 of the edge array, as a vector. -/
def dstOf (ei : IVec S2x1600000 32) : IVec S1600000 32 :=
  shapeCast S1600000 (extractStridedSlice S1x1600000 ![1, 0] ei Facts₀.slices_S2x1600000_S1x1600000_1_0) Facts₀.shapeCasts_S1x1600000_S1600000

/-- The normalisation vector of the edge array's targets (self loops counted). -/
def normK (ei : IVec S2x1600000 32) : FVec Ideal S100000 .f32 :=
  Gcn.normOf Facts₀.scatter_S100000_S1700000x1_S1700000_n_0_0_1_wf Facts₀.bcast_S1700000_S1700000x1_0 Facts₀.bcast_S_S100000 Facts₀.bcast_S_S1700000
    Facts₀.concatenates_S1600000_S100000_S1700000_d0 (dstOf ei)

/-- The program's result as a function of its arguments: the kernel's layer. -/
def result (x : FVec Ideal S100000x128 .f32) (w : FVec Ideal S128x128 .f32) (b : FVec Ideal S128 .f32)
    (ei : IVec S2x1600000 32) : FVec Ideal S100000x128 .f32 :=
  Gcn.kerLayer Facts₀.gather_S100000x128_S1600000x1_S1600000x128_1_0_n_n_0_1_1128_wf Facts₀.scatter_S100000x128_S1600000x1_S1600000x128_1_0_0_1_wf
    Facts₀.bcast_S1600000_S1600000x1_0 Facts₀.bcast_S_S1600000 Facts₀.bcast_S_S100000x128 Facts₀.shapeCasts_S100000_S100000x1 Facts₀.shapeCasts_S128_S1x128
    100000#32 x w b (srcOf ei) (dstOf ei) (normK ei)

/-! ## The host stretches, read back over any contents -/

section Stretches

variable (U : Valuation τ sig (Elt Ideal))

attribute [local congr] Idealize.ShloMosaic.concatenate_pair_congr

/-- The degree vector as the first stretch leaves it: ones scattered into zeros along the targets with one self loop per
    node appended. -/
def degK (ei : IVec S2x1600000 32) : FVec Ideal S100000 .f32 :=
  Host.scatterAdd (LoopConcat.vecScatterDims 100000 1700000 Facts₀.scatter_S100000_S1700000x1_S1700000_n_0_0_1_wf)
    (broadcastInDim S100000 ![] Facts₀.bcast_S_S100000 (constant (F := Ideal) S_ .f32 0x00000000#32))
    (broadcastInDim S1700000x1 ![0] Facts₀.bcast_S1700000_S1700000x1_0
      (concatenate S1700000 0 [⟨S1600000, dstOf ei⟩, ⟨S100000, iotaInDim S100000 32 0⟩]
        Facts₀.concatenates_S1600000_S100000_S1700000_d0))
    (broadcastInDim S1700000 ![] Facts₀.bcast_S_S1700000 (constant (F := Ideal) S_ .f32 0x3F800000#32))

/-- The normalisation vector is one over the square root of a positive degree, zero elsewhere. -/
theorem normK_eq (ei : IVec S2x1600000 32) :
    normK ei = select
      (cmpf .ogt (degK ei) (broadcastInDim S100000 ![] Facts₀.bcast_S_S100000 (constant (F := Ideal) S_ .f32 0x00000000#32)))
      (Host.rsqrt (degK ei))
      (broadcastInDim S100000 ![] Facts₀.bcast_S_S100000 (constant (F := Ideal) S_ .f32 0x00000000#32)) := rfl

/-- The first stretch leaves the comparison of the degrees with zero … -/
theorem first_v11 : after (hostOps0 (F := Ideal)) U (Proc.devRef .tc main_v11)
    = cmpf .ogt (degK (U (Proc.devRef .tc main_arg4)))
        (broadcastInDim S100000 ![] Facts₀.bcast_S_S100000 (constant (F := Ideal) S_ .f32 0x00000000#32)) := by
  after_results_simp <;> rfl

/-- … one over the square roots of the degrees … -/
theorem first_v12 : after (hostOps0 (F := Ideal)) U (Proc.devRef .tc main_v12)
    = Host.rsqrt (degK (U (Proc.devRef .tc main_arg4))) := by
  after_results_simp <;> rfl

/-- … and a zero. -/
theorem first_cst2 : after (hostOps0 (F := Ideal)) U (Proc.devRef .tc main_cst_2)
    = constant (F := Ideal) S_ .f32 0x00000000#32 := by
  after_results_simp <;> rfl

/-- The selection keeps the second where the first holds and the splat of the third elsewhere. -/
theorem where_v13 : after (hostOps0_1 (F := Ideal)) U (Proc.devRef .tc main_v13)
    = select (U (Proc.devRef .tc main_v11)) (U (Proc.devRef .tc main_v12))
        (broadcastInDim S100000 ![] Facts₀.bcast_S_S100000 (U (Proc.devRef .tc main_cst_2))) := by
  after_results_simp <;> rfl

/-- The last stretch before the region lays the vector out as a column. -/
theorem column_v14 : after (hostOps0_2 (F := Ideal)) U (Proc.devRef .tc main_v14)
    = shapeCast S100000x1 (U (Proc.devRef .tc main_v13)) Facts₀.shapeCasts_S100000_S100000x1 := by
  after_results_simp <;> rfl

/-- After the stretches before the first region, the normalisation column holds the normalisation vector of the
    targets, as a column. -/
theorem entry_v14 : after (hostOps0_2 (F := Ideal)) (after (hostOps0_1 (F := Ideal)) (after (hostOps0 (F := Ideal)) U))
      (Proc.devRef .tc main_v14)
    = shapeCast S100000x1 (normK (U (Proc.devRef .tc main_arg4))) Facts₀.shapeCasts_S100000_S100000x1 := by
  rw [column_v14, where_v13, first_v11, first_v12, first_cst2, normK_eq]

/-- … the sources' buffer holds the sources … -/
theorem entry_v1 : after (hostOps0_2 (F := Ideal)) (after (hostOps0_1 (F := Ideal)) (after (hostOps0 (F := Ideal)) U))
      (Proc.devRef .tc main_v1) = srcOf (U (Proc.devRef .tc main_arg4)) := by
  after_results_simp <;> rfl

/-- … the targets' buffer holds the targets … -/
theorem entry_v3 : after (hostOps0_2 (F := Ideal)) (after (hostOps0_1 (F := Ideal)) (after (hostOps0 (F := Ideal)) U))
      (Proc.devRef .tc main_v3) = dstOf (U (Proc.devRef .tc main_arg4)) := by
  after_results_simp <;> rfl

/-- … and the features, the weights and the bias are untouched. -/
theorem entry_arg0 : after (hostOps0_2 (F := Ideal)) (after (hostOps0_1 (F := Ideal)) (after (hostOps0 (F := Ideal)) U))
      (Proc.devRef .tc main_arg0) = U (Proc.devRef .tc main_arg0) := by
  after_results_simp
theorem entry_arg2 : after (hostOps0_2 (F := Ideal)) (after (hostOps0_1 (F := Ideal)) (after (hostOps0 (F := Ideal)) U))
      (Proc.devRef .tc main_arg2) = U (Proc.devRef .tc main_arg2) := by
  after_results_simp
theorem entry_arg3 : after (hostOps0_2 (F := Ideal)) (after (hostOps0_1 (F := Ideal)) (after (hostOps0 (F := Ideal)) U))
      (Proc.devRef .tc main_arg3) = U (Proc.devRef .tc main_arg3) := by
  after_results_simp

/-- After the stretch between the regions, the aggregate's buffer holds the scatter over the real edges of the
    gathered rows of the first region's output … -/
theorem mid_v25 : after (hostOps1 (F := Ideal)) U (Proc.devRef .tc main_v25)
    = Host.scatterAdd scatter_S100000x128_S1600000x1_S1600000x128_1_0_0_1
        (broadcastInDim S100000x128 ![] Facts₀.bcast_S_S100000x128 (constant (F := Ideal) S_ .f32 0x00000000#32))
        (broadcastInDim S1600000x1 ![0] Facts₀.bcast_S1600000_S1600000x1_0 (U (Proc.devRef .tc main_v3)))
        (Host.gather gather_S100000x128_S1600000x1_S1600000x128_1_0_n_n_0_1_1128 (U (Proc.devRef .tc main_v15))
          (broadcastInDim S1600000x1 ![0] Facts₀.bcast_S1600000_S1600000x1_0
            (LoopConcat.wrapNeg Facts₀.bcast_S_S1600000 100000#32 (U (Proc.devRef .tc main_v1))))) := by
  after_results_simp <;> rfl

/-- … the bias row holds the bias as a row … -/
theorem mid_v26 : after (hostOps1 (F := Ideal)) U (Proc.devRef .tc main_v26)
    = shapeCast S1x128 (U (Proc.devRef .tc main_arg3)) Facts₀.shapeCasts_S128_S1x128 := by
  after_results_simp <;> rfl

/-- … and the first region's output and the normalisation column are untouched. -/
theorem mid_v15 : after (hostOps1 (F := Ideal)) U (Proc.devRef .tc main_v15) = U (Proc.devRef .tc main_v15) := by
  after_results_simp
theorem mid_v14 : after (hostOps1 (F := Ideal)) U (Proc.devRef .tc main_v14) = U (Proc.devRef .tc main_v14) := by
  after_results_simp

end Stretches

/-! ## The boundaries' contents, from the launch memory -/

section Boundaries

variable (m : (ℓ : Loc nD τ sig) → Buf (Elt Ideal) ℓ) (ρ : Dev nD → PrngReg) (c : Dev nD)

/-- When the first region is entered, the normalisation column holds the normalisation vector of the launched edge
    array's targets, as a column … -/
theorem V3_v14 : V3 m ρ c main_v14
    = shapeCast S100000x1 (normK (m ((c : Thread nD τ).loc main_arg4))) Facts₀.shapeCasts_S100000_S100000x1 :=
  entry_v14 (W0 m ρ c)

/-- … and the features and the weights are as launched. -/
theorem V3_arg0 : V3 m ρ c main_arg0 = m ((c : Thread nD τ).loc main_arg0) := entry_arg0 (W0 m ρ c)
theorem V3_arg2 : V3 m ρ c main_arg2 = m ((c : Thread nD τ).loc main_arg2) := entry_arg2 (W0 m ρ c)

/-- THE FIRST REGION'S OUTPUT at its exit: the row-scaled linear map of the launched features and weights. -/
theorem W4_v15 : W4 m ρ c (Proc.devRef .tc main_v15)
    = Gcn.prescaled (N := 100000) (K := 128) (C := 128) (m ((c : Thread nD τ).loc main_arg0)) (m ((c : Thread nD τ).loc main_arg2))
        (shapeCast S100000x1 (normK (m ((c : Thread nD τ).loc main_arg4))) Facts₀.shapeCasts_S100000_S100000x1) :=
  (W4_arr m ρ c 3).trans ((Region0Value.final (V3 m ρ) c).trans (by rw [V3_arg0, V3_arg2, V3_v14]))

/-- The normalisation column is an input of the first region: it leaves it as it entered. -/
theorem W4_v14 : W4 m ρ c (Proc.devRef .tc main_v14)
    = shapeCast S100000x1 (normK (m ((c : Thread nD τ).loc main_arg4))) Facts₀.shapeCasts_S100000_S100000x1 :=
  (W4_arr m ρ c 2).trans (((dat0 (V3 m ρ) c).arrAt_in 2 rfl _).trans ((A_eq0 (V3 m ρ) c 2).trans (V3_v14 m ρ c)))

/-- The sources, the targets and the bias are not the first region's arrays: they pass it by. -/
theorem W4_v1 : W4 m ρ c (Proc.devRef .tc main_v1) = srcOf (m ((c : Thread nD τ).loc main_arg4)) :=
  (W4_of_ne m ρ c main_v1 (by decide)).trans (entry_v1 (W0 m ρ c))
theorem W4_v3 : W4 m ρ c (Proc.devRef .tc main_v3) = dstOf (m ((c : Thread nD τ).loc main_arg4)) :=
  (W4_of_ne m ρ c main_v3 (by decide)).trans (entry_v3 (W0 m ρ c))
theorem W4_arg3 : W4 m ρ c (Proc.devRef .tc main_arg3) = m ((c : Thread nD τ).loc main_arg3) :=
  (W4_of_ne m ρ c main_arg3 (by decide)).trans (entry_arg3 (W0 m ρ c))

/-- THE RESULT BUFFER AT THE LAST BOUNDARY is the kernel's layer of the launched arguments: the second region's output is
    `Gcn.postscaled` of what the stretch between the regions leaves — the aggregate over the real edges of the first
    region's output, that output itself, the normalisation column and the bias row. -/
theorem value : W6 m ρ c (Proc.devRef .tc main_v27)
    = result (m ((c : Thread nD τ).loc main_arg0)) (m ((c : Thread nD τ).loc main_arg2))
        (m ((c : Thread nD τ).loc main_arg3)) (m ((c : Thread nD τ).loc main_arg4)) :=
  (W6_arr m ρ c 4).trans ((Region1Value.final (V5 m ρ) c).trans (by
    show Gcn.postscaled (after (hostOps1 (F := Ideal)) (W4 m ρ c) (Proc.devRef .tc main_v25))
        (after (hostOps1 (F := Ideal)) (W4 m ρ c) (Proc.devRef .tc main_v15))
        (after (hostOps1 (F := Ideal)) (W4 m ρ c) (Proc.devRef .tc main_v14))
        (after (hostOps1 (F := Ideal)) (W4 m ρ c) (Proc.devRef .tc main_v26)) = _
    rw [mid_v25, mid_v15, mid_v14, mid_v26, W4_v15, W4_v14, W4_v1, W4_v3, W4_arg3]
    rfl))

end Boundaries

end Cert.KernelIdeal.KernelValue

end
-- ==== Proof.RefValue.lean ====
/-
  The idealized reference program's result as ONE function of its arguments.

  The reference computes the linear map h = x · w on the host, appends one self loop per node to the edge list, scales
  each gathered row by the two gathered normalisation factors and scatters onto the targets, adds the bias and takes the
  maximum with zero. Its run's composed term IS the reference's layer of `Gcn` over that linear map, the bias, the two
  rows of the edge array and the normalisation vector of the targets: the two terms differ only in how the operations'
  dimension numbers are named.
-/
import proofs.«152121_j6150393168665_2_alg».proof.Proof.RefRun
import proofs.«152121_j6150393168665_2_alg».proof.Proof.GcnBridge

noncomputable section

namespace Cert.ReferenceIdeal.RefValue

open Cert.ReferenceIdeal Cert.ReferenceIdeal.Gen
open Idealize.ShloMosaic Idealize.ShloMosaic.TcCoe Idealize.SL.Sem

/-- The edges' sources: row 0 of the edge array, as a vector. -/
def srcOf (ei : IVec S2x1600000 32) : IVec S1600000 32 :=
  shapeCast S1600000 (extractStridedSlice S1x1600000 ![0, 0] ei Facts₀.slices_S2x1600000_S1x1600000_0_0) Facts₀.shapeCasts_S1x1600000_S1600000

/-- The edges' targets: row 1 of the edge array, as a vector. -/
def dstOf (ei : IVec S2x1600000 32) : IVec S1600000 32 :=
  shapeCast S1600000 (extractStridedSlice S1x1600000 ![1, 0] ei Facts₀.slices_S2x1600000_S1x1600000_1_0) Facts₀.shapeCasts_S1x1600000_S1600000

/-- The normalisation vector of the edge array's targets (self loops counted). -/
def normR (ei : IVec S2x1600000 32) : FVec Ideal S100000 .f32 :=
  Gcn.normOf Facts₀.scatter_S100000_S1700000x1_S1700000_n_0_0_1_wf Facts₀.bcast_S1700000_S1700000x1_0 Facts₀.bcast_S_S100000
    Facts₀.bcast_S_S1700000 Facts₀.concatenates_S1600000_S100000_S1700000_d0 (dstOf ei)

/-- The reference's result as a function of its arguments: the reference's layer over the host's linear map. -/
def result (x : FVec Ideal S100000x128 .f32) (w : FVec Ideal S128x128 .f32) (b : FVec Ideal S128 .f32)
    (ei : IVec S2x1600000 32) : FVec Ideal S100000x128 .f32 :=
  Gcn.refLayer Facts₀.gather_S100000_S1700000x1_S1700000_n_0_n_n_0_1_1_wf
    Facts₀.gather_S100000x128_S1700000x1_S1700000x128_1_0_n_n_0_1_1128_wf Facts₀.scatter_S100000x128_S1700000x1_S1700000x128_1_0_0_1_wf
    Facts₀.bcast_S1700000_S1700000x1_0 Facts₀.bcast_S1700000x1_S1700000x128_0_1 Facts₀.bcast_S_S1700000 Facts₀.bcast_S_S100000x128
    Facts₀.bcast_S128_S1x128_1 Facts₀.bcast_S1x128_S100000x128_0_1 Facts₀.concatenates_S1600000_S100000_S1700000_d0 100000#32
    (Host.dotGeneral dot_S100000x128_S128x128_S100000x128_1_0_0_1_n_n none x w) b (srcOf ei) (dstOf ei) (normR ei)

/-- The run's composed term is the reference's layer of the launch contents of the arguments. -/
theorem res_eq (m : (ℓ : Loc nD τ sig) → Buf (Elt Ideal) ℓ) (c : Dev nD) :
    Cert.ReferenceIdeal.ValueP.res_main_v47 (F := Ideal) m c
      = result (m ((c.tc : Thread nD τ).loc main_arg0)) (m ((c.tc : Thread nD τ).loc main_arg2))
          (m ((c.tc : Thread nD τ).loc main_arg3)) (m ((c.tc : Thread nD τ).loc main_arg4)) := by
  unfold Cert.ReferenceIdeal.ValueP.res_main_v47 result
  rfl

end Cert.ReferenceIdeal.RefValue

end
-- ==== Proof.Bridge.lean ====
/-
  The kernel's result and the reference's result are one function of the arguments.

  Both are layers of `Gcn` over the same features, weights, bias, edge rows and normalisation vector; `Gcn.layers_eq` joins
  them, given that the host's product is the plain sum over the contracted coordinate and that every normalisation
  factor is a finite number that is not negative. Two side conditions that neither program states (the two programs never
  join E rows with N rows, and never gather single entries along the E real edges) are decided here on the literal extents.
-/
import proofs.«152121_j6150393168665_2_alg».proof.Proof.KernelValue
import proofs.«152121_j6150393168665_2_alg».proof.Proof.RefValue
import Idealize.ShloMosaic.Lib.StackMember

set_option synthInstance.maxSize 4096

noncomputable section

namespace Cert.Proof.Bridge

open Idealize.ShloMosaic Idealize.ShloMosaic.ValueIdx

/-- 1600000 rows above 100000 rows, 128 wide, are 1700000 rows. -/
theorem rows_concat :
    Shape.Concatenates [(⟨2, ![1600000, 128]⟩ : Shape), ⟨2, ![100000, 128]⟩] ⟨2, ![1700000, 128]⟩ 0 := by decide

/-- The dimension numbers of a gather of single entries of a 100000-vector along 1600000 indices are well formed. -/
theorem gather_vec_edges :
    GatherDims.WF ⟨1, ![100000]⟩ ⟨2, ![1600000, 1]⟩ ⟨1, ![1600000]⟩ [] [0] [] [0] [] 1 ![1] := by decide

/-- THE TWO RESULTS AGREE on every argument. -/
theorem results_eq (x : FVec Ideal ⟨2, ![100000, 128]⟩ .f32) (w : FVec Ideal ⟨2, ![128, 128]⟩ .f32)
    (b : FVec Ideal ⟨1, ![128]⟩ .f32) (ei : IVec ⟨2, ![2, 1600000]⟩ 32) :
    Cert.KernelIdeal.KernelValue.result x w b ei = Cert.ReferenceIdeal.RefValue.result x w b ei := by
  unfold Cert.KernelIdeal.KernelValue.result Cert.ReferenceIdeal.RefValue.result
  exact Gcn.layers_eq (N := 100000) (E := 1600000) (T := 1700000) (C := 128) (K := 128)
    Cert.ReferenceIdeal.Facts₀.gather_S100000_S1700000x1_S1700000_n_0_n_n_0_1_1_wf
    Cert.ReferenceIdeal.Facts₀.gather_S100000x128_S1700000x1_S1700000x128_1_0_n_n_0_1_1128_wf
    Cert.ReferenceIdeal.Facts₀.scatter_S100000x128_S1700000x1_S1700000x128_1_0_0_1_wf
    Cert.ReferenceIdeal.Facts₀.bcast_S1700000_S1700000x1_0
    Cert.ReferenceIdeal.Facts₀.bcast_S1700000x1_S1700000x128_0_1
    Cert.ReferenceIdeal.Facts₀.bcast_S_S1700000
    Cert.ReferenceIdeal.Facts₀.bcast_S_S100000x128
    Cert.ReferenceIdeal.Facts₀.bcast_S128_S1x128_1
    Cert.ReferenceIdeal.Facts₀.bcast_S1x128_S100000x128_0_1
    Cert.ReferenceIdeal.Facts₀.concatenates_S1600000_S100000_S1700000_d0
    rows_concat gather_vec_edges
    Cert.KernelIdeal.Facts₀.gather_S100000x128_S1600000x1_S1600000x128_1_0_n_n_0_1_1128_wf
    Cert.KernelIdeal.Facts₀.scatter_S100000x128_S1600000x1_S1600000x128_1_0_0_1_wf
    Cert.KernelIdeal.Facts₀.bcast_S1600000_S1600000x1_0
    Cert.KernelIdeal.Facts₀.bcast_S_S1600000
    Cert.KernelIdeal.Facts₀.shapeCasts_S100000_S100000x1
    Cert.KernelIdeal.Facts₀.shapeCasts_S128_S1x128
    (by norm_num) (by norm_num) 100000#32
    x w b (Cert.KernelIdeal.KernelValue.srcOf ei) (Cert.KernelIdeal.KernelValue.dstOf ei)
    (Cert.KernelIdeal.KernelValue.normK ei)
    (Host.dotGeneral Cert.ReferenceIdeal.dot_S100000x128_S128x128_S100000x128_1_0_0_1_n_n none x w)
    (fun r q => StackMember.dotGeneral_plain_apply none x w r q)
    (fun i => Gcn.normOf_fin _ _ _ _ _ _ i)

end Cert.Proof.Bridge

end
-- ==== Proof.lean ====
/-
  A graph-convolution layer with symmetric normalisation: a kernel in two dense regions against a host reference.

  For node features x (100000 × 128), weights w (128 × 128), a bias b and an edge array (sources, targets; 1600000
  edges), write h = x · w, and dis(i) for one over the square root of the number of list entries targeting node i, one
  self loop per node counted (zero where that count is not positive). THE REFERENCE appends the self loops to the edge
  list and computes out(i) = max(Σ_{entries e with target i} h(src e) · (dis(src e) · dis(dst e)) + b, 0). THE KERNEL scales
  the rows in its first region, h'(r) = h(r) · dis(r), aggregates h' over the real edges only on the host, and in its second
  region computes out(i) = max((Σ_{edges e with target i} h'(src e) + h'(i)) · dis(i) + b, 0).

  * Each program's frame: the kernel's two are the generated frames; the reference's is its run with the result dropped.
  * The idealization rewrote nothing, so there is nothing to preserve.
  * At the ideal values the two programs end with equal results. The kernel's result buffer ends at the kernel's layer of the
    launched arguments (`KernelValue.value`: each region leaves the whole-array function its blocks tile, each host stretch
    is read back operation by operation); the reference's at the reference's layer (`RefValue.res_eq`); and the two layers are
    one function (`Bridge.results_eq`, from `Gcn.layers_eq`): a self loop contributes h(i) · (dis i · dis i); an edge landing on
    i has target factor dis(i); and multiplication by dis(i) — a finite number that is not negative, whatever the degree —
    distributes over the finite sum of extended reals. The inputs' finiteness is not needed.
-/
import proofs.«152121_j6150393168665_2_alg».proof.Defs
import proofs.«152121_j6150393168665_2_alg».proof.Proof.Gen.Kernel
import proofs.«152121_j6150393168665_2_alg».proof.Proof.Gen.Kernel.Skeleton
import proofs.«152121_j6150393168665_2_alg».proof.Proof.Gen.Kernel.Launch
import proofs.«152121_j6150393168665_2_alg».proof.Proof.Gen.Kernel.Points
import proofs.«152121_j6150393168665_2_alg».proof.Proof.Gen.Kernel.Frame
import proofs.«152121_j6150393168665_2_alg».proof.Proof.Gen.KernelIdeal
import proofs.«152121_j6150393168665_2_alg».proof.Proof.Gen.KernelIdeal.Skeleton
import proofs.«152121_j6150393168665_2_alg».proof.Proof.Gen.KernelIdeal.Launch
import proofs.«152121_j6150393168665_2_alg».proof.Proof.Gen.KernelIdeal.Points
import proofs.«152121_j6150393168665_2_alg».proof.Proof.Gen.KernelIdeal.Frame
import proofs.«152121_j6150393168665_2_alg».proof.Proof.Gen.ReferenceIdeal
import proofs.«152121_j6150393168665_2_alg».proof.Proof.Gen.Pre_finite_inputs
import proofs.«152121_j6150393168665_2_alg».proof.Proof.Bridge
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- At the ideal values, from memories agreeing on the arguments, both programs end with the kernel's layer of the
    arguments in their result buffers. -/
theorem algebraic : Cert.algebraic_KernelIdeal_ReferenceIdeal := by
  intro m ρ m' ρ' _ hagree
  refine ⟨fun c => Cert.KernelIdeal.KernelValue.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.KernelIdeal.KernelValue.value m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefValue.res_eq, (hagree c).1, (hagree c).2.2.1, (hagree c).2.2.2.1, (hagree c).2.2.2.2]
    exact (Cert.Proof.Bridge.results_eq _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
